-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64 : Shape := ⟨2, ![64, 64]⟩
abbrev S50000x64 : Shape := ⟨2, ![50000, 64]⟩
abbrev S800000x64 : Shape := ⟨2, ![800000, 64]⟩
abbrev S2x800000 : Shape := ⟨2, ![2, 800000]⟩
abbrev S50000 : Shape := ⟨1, ![50000]⟩
abbrev S64 : Shape := ⟨1, ![64]⟩
abbrev S256x64 : Shape := ⟨2, ![256, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S800000x64 : S_.BroadcastsInDim S800000x64 (![] : Fin 0 → Fin S800000x64.rank)
  reducesTo_S800000x64_S_d0_1 : S800000x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S64x128 .f32) (main_arg14 : FVec F S128 .f32) (main_arg15 : FVec F S128x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S64x64 .f32) (main_arg10 : FVec F S64 .f32) (main_arg11 : FVec F S256x64 .f32) (main_arg12 : FVec F S64 .f32) (main_arg13 : FVec F S64x128 .f32) (main_arg14 : FVec F S128 .f32) (main_arg15 : FVec F S128x1 .f32) (main_arg16 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S256x64 .f32 := Host.absf main_arg11
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S256x64 .f32) (main_arg12 : FVec F S64 .f32) (main_arg13 : FVec F S64x128 .f32) (main_arg14 : FVec F S128 .f32) (main_arg15 : FVec F S128x1 .f32) (main_arg16 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S64x64 .f32) (main_arg1 : FVec F S50000x64 .f32) (main_arg2 : FVec F S800000x64 .f32) (main_arg3 : IVec S2x800000 32) (main_arg4 : IVec S50000 32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S256x64 .f32) (main_arg12 : FVec F S64 .f32) (main_arg13 : FVec F S64x128 .f32) (main_arg14 : FVec F S128 .f32) (main_arg15 : FVec F S128x1 .f32) (main_arg16 : FVec F S1 .f32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000x64 .f32 := Host.absf main_arg2
  let main_cst_2 : FVec F S_ .f32 := constant S_ .f32 0x7F800000#32
  let main_v10 : FVec F S800000x64 .f32 := broadcastInDim S800000x64 ![] bcast_S_S800000x64 main_cst_2
  let main_v11 : IVec S800000x64 1 := cmpf .olt main_v9 main_v10
  let main_c_3 : IVec S_ 1 := constantI S_ 1 1#1
  let main_v12 : IVec S_ 1 := (fun x v => Host.reduce IntOp.andi x v reducesTo_S800000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S64x64 : Shape := ⟨2, ![64, 64]⟩
abbrev S50000x64 : Shape := ⟨2, ![50000, 64]⟩
abbrev S800000x64 : Shape := ⟨2, ![800000, 64]⟩
abbrev S2x800000 : Shape := ⟨2, ![2, 800000]⟩
abbrev S50000 : Shape := ⟨1, ![50000]⟩
abbrev S64 : Shape := ⟨1, ![64]⟩
abbrev S256x64 : Shape := ⟨2, ![256, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x64 : Shape := ⟨2, ![1, 64]⟩
abbrev S5000x64 : Shape := ⟨2, ![5000, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩
abbrev S1x1 : Shape := ⟨2, ![1, 1]⟩
abbrev S3200x64 : Shape := ⟨2, ![3200, 64]⟩
abbrev S3200x1 : Shape := ⟨2, ![3200, 1]⟩
abbrev S3200x128 : Shape := ⟨2, ![3200, 128]⟩

abbrev nBuf : Space → Nat
  | .hbm => 73
  | .vmem => 27
  | .smem => 0
  | _ => 0

abbrev bufTy : (tb : Table) → Fin (tcTables nBuf tb) → BufTy
  | .hbm, ⟨0, _⟩ => ⟨S64x64, .f32⟩
  | .hbm, ⟨1, _⟩ => ⟨S50000x64, .f32⟩
  | .hbm, ⟨2, _⟩ => ⟨S800000x64, .f32⟩
  | .hbm, ⟨3, _⟩ => ⟨S2x800000, .i32⟩
  | .hbm, ⟨4, _⟩ => ⟨S50000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S256x64, .f32⟩
  | .hbm, ⟨12, _⟩ => ⟨S64, .f32⟩
  | .hbm, ⟨13, _⟩ => ⟨S64x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S64x64, .f32⟩
  | .hbm, ⟨18, _⟩ => ⟨S1x64, .f32⟩
  | .hbm, ⟨19, _⟩ => ⟨S64x64, .f32⟩
  | .hbm, ⟨20, _⟩ => ⟨S64x64, .f32⟩
  | .hbm, ⟨21, _⟩ => ⟨S1x64, .f32⟩
  | .hbm, ⟨22, _⟩ => ⟨S50000x64, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .i32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S1x64, .f32⟩
  | .hbm, ⟨68, _⟩ => ⟨S1x64, .f32⟩
  | .hbm, ⟨69, _⟩ => ⟨S1x128, .f32⟩
  | .hbm, ⟨70, _⟩ => ⟨S1x1, .f32⟩
  | .hbm, ⟨71, _⟩ => ⟨S800000x1, .f32⟩
  | .hbm, ⟨72, _⟩ => ⟨S800000, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S3200x64, .f32⟩
  | .local _ .vmem, ⟨7, _⟩ => ⟨S3200x64, .f32⟩
  | .local _ .vmem, ⟨8, _⟩ => ⟨S3200x64, .f32⟩
  | .local _ .vmem, ⟨9, _⟩ => ⟨S3200x64, .f32⟩
  | .local _ .vmem, ⟨10, _⟩ => ⟨S3200x64, .f32⟩
  | .local _ .vmem, ⟨11, _⟩ => ⟨S3200x64, .f32⟩
  | .local _ .vmem, ⟨12, _⟩ => ⟨S3200x64, .f32⟩
  | .local _ .vmem, ⟨13, _⟩ => ⟨S3200x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S64x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S64x128, .f32⟩
  | .local _ .vmem, ⟨22, _⟩ => ⟨S1x128, .f32⟩
  | .local _ .vmem, ⟨23, _⟩ => ⟨S128x1, .f32⟩
  | .local _ .vmem, ⟨24, _⟩ => ⟨S1x1, .f32⟩
  | .local _ .vmem, ⟨25, _⟩ => ⟨S3200x1, .f32⟩
  | .local _ .vmem, ⟨26, _⟩ => ⟨S3200x1, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_3 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc1_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24
abbrev cc1_sem15_0 : DmaSem sig := 25
abbrev cc1_sem15_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3200x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S3200x1 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  shapeCasts_S128_S1x128 : S128.ShapeCasts S1x128
  shapeCasts_S1_S1x1 : S1.ShapeCasts S1x1
  inb_S3200x64_S3200x64_0_0 : ∀ a, (![0, 0] : Fin 2 → Nat) a + S3200x64.size a ≤ S3200x64.size a
  h_S3200x64 : 0 < S3200x64.numel
  broadcasts_S1x64_S3200x64 : S1x64.Broadcasts S3200x64
  shapeCasts_S3200x64_S3200x64 : S3200x64.ShapeCasts S3200x64
  shapeCasts_S64x64_S64x64 : S64x64.ShapeCasts S64x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  inb_S3200x1_S3200x1_0_0 : ∀ a, (![0, 0] : Fin 2 → Nat) a + S3200x1.size a ≤ S3200x1.size a
  h_S3200x1 : 0 < S3200x1.numel
  shapeCasts_S800000x1_S800000 : S800000x1.ShapeCasts S800000
  dot_S64x64_S64x64_S64x64_1_0_0_1_n_n_wf : DotDims.WF S64x64 S64x64 S64x64 [1] [0] [0] [1] [] []
  dot_S5000x64_S64x64_S5000x64_1_0_0_1_n_n_wf : DotDims.WF S5000x64 S64x64 S5000x64 [1] [0] [0] [1] [] []
  gather_S50000_S800000x1_S800000_n_0_n_n_0_1_1_wf : GatherDims.WF S50000 S800000x1 S800000 [] [0] [] [0] [] 1 ![1]
  gather_S64x64_S800000x1_S800000x64_1_0_n_n_0_1_164_wf : GatherDims.WF S64x64 S800000x1 S800000x64 [1] [0] [] [0] [] 1 ![1, 64]
  gather_S50000x64_S800000x1_S800000x64_1_0_n_n_0_1_164_wf : GatherDims.WF S50000x64 S800000x1 S800000x64 [1] [0] [] [0] [] 1 ![1, 64]
  dot_S3200x64_S64x64_S3200x64_1_0_0_1_n_n_wf : DotDims.WF S3200x64 S64x64 S3200x64 [1] [0] [0] [1] [] []
  dot_S3200x64_S64x128_S3200x128_1_0_0_1_n_n_wf : DotDims.WF S3200x64 S64x128 S3200x128 [1] [0] [0] [1] [] []
  dot_S3200x128_S128x1_S3200x1_1_0_0_1_n_n_wf : DotDims.WF S3200x128 S128x1 S3200x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x64.size a ≤ S800000x64.size a
  hwx1_0 : ∀ i : grid1.Coords, EltTy.bits .f32 = 32 ∨ (Rect.block (s := S800000x64) S3200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S800000x64.size a
  hwx1_1 : ∀ i : grid1.Coords, EltTy.bits .f32 = 32 ∨ (Rect.block (s := S800000x64) S3200x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x64.size a ≤ S800000x64.size a
  hwx1_2 : ∀ i : grid1.Coords, EltTy.bits .f32 = 32 ∨ (Rect.block (s := S800000x64) S3200x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x64.size a ≤ S800000x64.size a
  hwx1_3 : ∀ i : grid1.Coords, EltTy.bits .f32 = 32 ∨ (Rect.block (s := S800000x64) S3200x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x128.size a ≤ S64x128.size a
  hwx1_11 : ∀ i : grid1.Coords, EltTy.bits .f32 = 32 ∨ (Rect.block (s := S64x128) S64x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128x1.size a ≤ S128x1.size a
  hwx1_13 : ∀ i : grid1.Coords, EltTy.bits .f32 = 32 ∨ (Rect.block (s := S128x1) S128x1.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x1.size a ≤ S1x1.size a
  hwx1_14 : ∀ i : grid1.Coords, EltTy.bits .f32 = 32 ∨ (Rect.block (s := S1x1) S1x1.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S3200x1.size a ≤ S800000x1.size a
  hwx1_15 : ∀ i : grid1.Coords, EltTy.bits .f32 = 32 ∨ (Rect.block (s := S800000x1) S3200x1.size (cc1_transform_15 i) (hinb1_15 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S64x64_S800000x1_S800000x64_1_0_n_n_0_1_164 : GatherDims S64x64 S800000x1 S800000x64 where
  offsetDims := [1]
  collapsedSliceDims := [0]
  operandBatchingDims := []
  startIndicesBatchingDims := []
  startIndexMap := [0]
  indexVectorDim := 1
  sliceSizes := ![1, 64]
  wf := gather_S64x64_S800000x1_S800000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def dot_S3200x64_S64x128_S3200x128_1_0_0_1_n_n : DotDims S3200x64 S64x128 S3200x128 where
  lhsContracting := [1]
  rhsContracting := [0]
  lhsNonContracting := [0]
  rhsNonContracting := [1]
  lhsBatch := []
  rhsBatch := []
  wf := dot_S3200x64_S64x128_S3200x128_1_0_0_1_n_n_wf
def dot_S3200x128_S128x1_S3200x1_1_0_0_1_n_n : DotDims S3200x128 S128x1 S3200x1 where
  lhsContracting := [1]
  rhsContracting := [0]
  lhsNonContracting := [0]
  rhsNonContracting := [1]
  lhsBatch := []
  rhsBatch := []
  wf := dot_S3200x128_S128x1_S3200x1_1_0_0_1_n_n_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S3200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S3200x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S3200x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v40) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v41) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v43) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg13) S64x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v44) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg15) S128x1.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v45) S1x1.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v46) S3200x1.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S64x64 : Shape := ⟨2, ![64, 64]⟩
abbrev S50000x64 : Shape := ⟨2, ![50000, 64]⟩
abbrev S800000x64 : Shape := ⟨2, ![800000, 64]⟩
abbrev S2x800000 : Shape := ⟨2, ![2, 800000]⟩
abbrev S50000 : Shape := ⟨1, ![50000]⟩
abbrev S64 : Shape := ⟨1, ![64]⟩
abbrev S256x64 : Shape := ⟨2, ![256, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64 : Shape := ⟨2, ![1, 64]⟩
abbrev S800000x256 : Shape := ⟨2, ![800000, 256]⟩
abbrev S800000x128 : Shape := ⟨2, ![800000, 128]⟩
abbrev S1x128 : Shape := ⟨2, ![1, 128]⟩
abbrev S1x1 : Shape := ⟨2, ![1, 1]⟩

abbrev nBuf : Space → Nat
  | .hbm => 97
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S50000x64, .f32⟩
  | .hbm, ⟨2, _⟩ => ⟨S800000x64, .f32⟩
  | .hbm, ⟨3, _⟩ => ⟨S2x800000, .i32⟩
  | .hbm, ⟨4, _⟩ => ⟨S50000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S256x64, .f32⟩
  | .hbm, ⟨12, _⟩ => ⟨S64, .f32⟩
  | .hbm, ⟨13, _⟩ => ⟨S64x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .i32⟩
  | .hbm, ⟨30, _⟩ => ⟨S64x64, .f32⟩
  | .hbm, ⟨31, _⟩ => ⟨S1x64, .f32⟩
  | .hbm, ⟨32, _⟩ => ⟨S64x64, .f32⟩
  | .hbm, ⟨33, _⟩ => ⟨S64x64, .f32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | .hbm, ⟨38, _⟩ => ⟨S800000x64, .f32⟩
  | .hbm, ⟨39, _⟩ => ⟨S1x64, .f32⟩
  | .hbm, ⟨40, _⟩ => ⟨S800000x64, .f32⟩
  | .hbm, ⟨41, _⟩ => ⟨S800000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S800000x256, .f32⟩
  | .hbm, ⟨70, _⟩ => ⟨S800000x64, .f32⟩
  | .hbm, ⟨71, _⟩ => ⟨S1x64, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S800000x64, .f32⟩
  | .hbm, ⟨76, _⟩ => ⟨S800000x64, .f32⟩
  | .hbm, ⟨77, _⟩ => ⟨S800000x128, .f32⟩
  | .hbm, ⟨78, _⟩ => ⟨S1x128, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S800000x128, .f32⟩
  | .hbm, ⟨83, _⟩ => ⟨S800000x128, .f32⟩
  | .hbm, ⟨84, _⟩ => ⟨S800000x1, .f32⟩
  | .hbm, ⟨85, _⟩ => ⟨S1x1, .f32⟩
  | .hbm, ⟨86, _⟩ => ⟨S800000x1, .f32⟩
  | .hbm, ⟨87, _⟩ => ⟨S800000x1, .f32⟩
  | .hbm, ⟨88, _⟩ => ⟨S800000, .f32⟩
  | .hbm, ⟨89, _⟩ => ⟨S800000, .f32⟩
  | .hbm, ⟨90, _⟩ => ⟨S800000, .f32⟩
  | .hbm, ⟨91, _⟩ => ⟨S_, .f32⟩
  | .hbm, ⟨92, _⟩ => ⟨S800000, .f32⟩
  | .hbm, ⟨93, _⟩ => ⟨S800000, .f32⟩
  | .hbm, ⟨94, _⟩ => ⟨S_, .f32⟩
  | .hbm, ⟨95, _⟩ => ⟨S800000, .f32⟩
  | .hbm, ⟨96, _⟩ => ⟨S800000, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_c_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call0_cst : Ref sig .tc := ⟨.hbm, 74, rfl⟩
abbrev main_call0_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst : Ref sig .tc := ⟨.hbm, 91, rfl⟩
abbrev main_v62 : Ref sig .tc := ⟨.hbm, 92, rfl⟩
abbrev main_v63 : Ref sig .tc := ⟨.hbm, 93, rfl⟩
abbrev main_cst_7 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  concatenates_S800000x64_S800000x64_S800000x64_S800000x64_S800000x256_d1 : Shape.Concatenates [S800000x64, S800000x64, S800000x64, S800000x64] S800000x256 1
  bcast_S_S800000x64 : S_.BroadcastsInDim S800000x64 (![] : Fin 0 → Fin S800000x64.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  gather_S50000_S800000x1_S800000_n_0_n_n_0_1_1_wf : GatherDims.WF S50000 S800000x1 S800000 [] [0] [] [0] [] 1 ![1]
  dot_S64x64_S64x64_S64x64_1_0_0_1_n_n_wf : DotDims.WF S64x64 S64x64 S64x64 [1] [0] [0] [1] [] []
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  gather_S64x64_S800000x1_S800000x64_1_0_n_n_0_1_164_wf : GatherDims.WF S64x64 S800000x1 S800000x64 [1] [0] [] [0] [] 1 ![1, 64]
  gather_S50000x64_S800000x1_S800000x64_1_0_n_n_0_1_164_wf : GatherDims.WF S50000x64 S800000x1 S800000x64 [1] [0] [] [0] [] 1 ![1, 64]
  dot_S800000x256_S256x64_S800000x64_1_0_0_1_n_n_wf : DotDims.WF S800000x256 S256x64 S800000x64 [1] [0] [0] [1] [] []
  dot_S800000x64_S64x128_S800000x128_1_0_0_1_n_n_wf : DotDims.WF S800000x64 S64x128 S800000x128 [1] [0] [0] [1] [] []
  dot_S800000x128_S128x1_S800000x1_1_0_0_1_n_n_wf : DotDims.WF S800000x128 S128x1 S800000x1 [1] [0] [0] [1] [] []

variable [Facts₀]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S64x64_S800000x1_S800000x64_1_0_n_n_0_1_164 : GatherDims S64x64 S800000x1 S800000x64 where
  offsetDims := [1]
  collapsedSliceDims := [0]
  operandBatchingDims := []
  startIndicesBatchingDims := []
  startIndexMap := [0]
  indexVectorDim := 1
  sliceSizes := ![1, 64]
  wf := gather_S64x64_S800000x1_S800000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.RunAll.lean ====
/-
  The idealized kernel program's run with its final memory read back: every weakly fair execution of @main from a
  memory with zero counters terminates, nothing faulting, and every buffer that lives across regions ends at the
  contents of the last segment boundary — the fold of the host stretches and the two regions' write-backs from the
  launch memory. The result buffer and the argument arrays are among those buffers.
-/
import proofs.«174812_j45294725103970_1_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every buffer that outlives the regions read at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The result buffer is one of the buffers that outlive the regions. -/
theorem mem_result : Proc.devRef .tc main_v47 ∈ Pipeline.ucRefs τ sig := mem_uc main_v47 (by decide)

end Cert.KernelIdeal.RunAll

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«174812_j45294725103970_1_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«174812_j45294725103970_1_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«174812_j45294725103970_1_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibCatDot.lean ====
/-
  The host's linear layers without a positive part, as whole-array functions on the extended reals.

  A product plus a bias row broadcast in two steps is the linear layer `lin`; two products added, plus such a row,
  the two-product layer `lin2`. A product whose left operand is two blocks set side by side, plus such a bias row, is
  the two-product layer of the blocks against the top and the bottom row ranges of the weight (`rowsTop`,
  `rowsBot`): the sum over the contraction index splits at the seam, which uses only that addition of extended reals
  is associative and commutative, so it holds at infinite entries too. The two row ranges are also what the two
  unit-stride slices of the weight at row offsets `0` and `K` read.
-/
import Idealize.ShloMosaic.Lib.ValueIdx
import Idealize.ShloMosaic.Lib.Pipeline.Value
import Idealize.ShloMosaic.PureOps.Ideal.Laws
import proofs.«174812_j45294725103970_1_alg».proof.Proof.LibDense

noncomputable section

open scoped BigOperators

namespace Cert.Lib.CatDot

open Idealize.ShloMosaic Idealize.ShloMosaic.ValueIdx Cert.Lib.BiasDot Cert.Lib.Dense

variable {M K K' N : Nat}

/-- The first `K` rows of a matrix of `K + K'` rows. -/
def rowsTop (Wc : (⟨2, ![K + K', N]⟩ : Shape).Idx → EReal) : (⟨2, ![K, N]⟩ : Shape).Idx → EReal :=
  fun i => Wc (ix2 (Fin.castAdd K' (i 0)) (i 1))

/-- Its last `K'` rows. -/
def rowsBot (Wc : (⟨2, ![K + K', N]⟩ : Shape).Idx → EReal) : (⟨2, ![K', N]⟩ : Shape).Idx → EReal :=
  fun i => Wc (ix2 (Fin.natAdd K (i 0)) (i 1))

/-- The slice at row offset `0` is the first `K` rows. -/
theorem slice_rowsTop (Wc : (⟨2, ![K + K', N]⟩ : Shape).Idx → EReal)
    (hs1 : (⟨2, ![K + K', N]⟩ : Shape).Slices ![0, 0] ⟨2, ![K, N]⟩) :
    extractStridedSlice ⟨2, ![K, N]⟩ ![0, 0] Wc hs1 = rowsTop Wc := by
  funext i
  obtain ⟨k, q, rfl⟩ : ∃ (k : Fin K) (q : Fin N), i = ix2 k q := ⟨i 0, i 1, eq_ix2 i⟩
  exact slice_top Wc hs1 k q

/-- The slice at row offset `K` is the last `K'` rows. -/
theorem slice_rowsBot (Wc : (⟨2, ![K + K', N]⟩ : Shape).Idx → EReal)
    (hs2 : (⟨2, ![K + K', N]⟩ : Shape).Slices ![K, 0] ⟨2, ![K', N]⟩) :
    extractStridedSlice ⟨2, ![K', N]⟩ ![K, 0] Wc hs2 = rowsBot Wc := by
  funext i
  obtain ⟨k, q, rfl⟩ : ∃ (k : Fin K') (q : Fin N), i = ix2 k q := ⟨i 0, i 1, eq_ix2 i⟩
  exact slice_bot Wc hs2 k q

/-- The sum over the contraction index of the side-by-side operand against the weight splits at the seam into the two
    blocks' sums against the first and the last rows of the weight. -/
theorem sum_concat_rows (A : (⟨2, ![M, K]⟩ : Shape).Idx → EReal) (C : (⟨2, ![M, K']⟩ : Shape).Idx → EReal)
    (Wc : (⟨2, ![K + K', N]⟩ : Shape).Idx → EReal)
    (hcat : Shape.Concatenates [(⟨2, ![M, K]⟩ : Shape), ⟨2, ![M, K']⟩] ⟨2, ![M, K + K']⟩ 1) (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * rowsTop Wc (ix2 k q)) + (∑ k : Fin K', C (ix2 p k) * rowsBot Wc (ix2 k q)) := by
  rw [Fin.sum_univ_add]
  refine congrArg₂ (· + ·) (Finset.sum_congr rfl fun k _ => ?_) (Finset.sum_congr rfl fun k _ => ?_)
  · rw [concat_left]; rfl
  · rw [concat_right]; rfl

/-- The host's linear layer: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- Two host products added, then a bias row broadcast in two steps added: the two-product layer. -/
theorem host_lin2 (d : DotDims ⟨2, ![M, K]⟩ ⟨2, ![K, N]⟩ ⟨2, ![M, N]⟩) (hd : d = DotDims.plain M K N)
    (d' : DotDims ⟨2, ![M, K']⟩ ⟨2, ![K', N]⟩ ⟨2, ![M, N]⟩) (hd' : d' = DotDims.plain M K' N)
    (A : FVec Ideal ⟨2, ![M, K]⟩ .f32) (Wa : FVec Ideal ⟨2, ![K, N]⟩ .f32)
    (C : FVec Ideal ⟨2, ![M, K']⟩ .f32) (Wb : FVec Ideal ⟨2, ![K', N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d none A Wa) (Host.dotGeneral d' none C Wb))
        (broadcastInDim ⟨2, ![M, N]⟩ ![0, 1] h2 (broadcastInDim ⟨2, ![1, N]⟩ ![1] h1 B))
      = lin2 A Wa C Wb B := by
  subst hd
  subst hd'
  funext i
  obtain ⟨p, q, rfl⟩ : ∃ (p : Fin M) (q : Fin N), i = ix2 p q := ⟨i 0, i 1, eq_ix2 i⟩
  rw [addf_apply, addf_apply, hostRow_apply]
  exact congrArg₂ (fun y z => y + z + B (ix1 q)) (Cert.Lib.PlainDot.dotGeneral_apply none _ A Wa p q)
    (Cert.Lib.PlainDot.dotGeneral_apply none _ C Wb p q)

/-- The host's layer over a side-by-side operand: the concatenation against the whole weight, plus the bias row, is the
    two-product layer of the two blocks against the first and the last rows of the weight. -/
theorem host_concat_lin2 (d : DotDims ⟨2, ![M, K + K']⟩ ⟨2, ![K + K', N]⟩ ⟨2, ![M, N]⟩) (hd : d = DotDims.plain M (K + K') N)
    (A : FVec Ideal ⟨2, ![M, K]⟩ .f32) (C : FVec Ideal ⟨2, ![M, K']⟩ .f32) (Wc : FVec Ideal ⟨2, ![K + K', N]⟩ .f32)
    (B : FVec Ideal ⟨1, ![N]⟩ .f32)
    (hcat : Shape.Concatenates [(⟨2, ![M, K]⟩ : Shape), ⟨2, ![M, K']⟩] ⟨2, ![M, K + K']⟩ 1)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none
          (concatenate ⟨2, ![M, K + K']⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B))
    = lin2 A (rowsTop Wc) C (rowsBot Wc) B := by
  subst hd
  funext i
  obtain ⟨p, q, rfl⟩ : ∃ (p : Fin M) (q : Fin N), i = ix2 p q := ⟨i 0, i 1, eq_ix2 i⟩
  rw [addf_apply, hostRow_apply]
  refine congrArg (fun z => z + B (ix1 q)) ?_
  exact (Cert.Lib.PlainDot.dotGeneral_apply none _ _ Wc p q).trans (sum_concat_rows A C Wc hcat p q)

end Cert.Lib.CatDot

end
-- ==== Proof.EdgeHead.lean ====
/-
  The edge-scoring head as functions of whole arrays, at the ideal values.

  For every edge (row) the score is
      σ( relu( relu( q·Wa + h·Wb + (e·Wr + br)·Wc + t·Wd + b1 ) · W2 + b2 ) · Wh + bh ),
  where q, h, e, t are the edge's four 64-wide feature rows and σ x = 1 / (1 + exp (-x)).
  Every layer reads one row of its operand, so the score of a row of a block is the score of the matching row
  of the whole array (score_row). A product of a row of 256 entries laid out as four 64-wide pieces with a
  256 × 64 weight is the sum of the four pieces' products with the weight's four row ranges (sum_four): only
  commutativity and associativity of + on the extended reals, nothing about finiteness.
-/
import Idealize.ShloMosaic.Lib.ValueIdx
import Idealize.ShloMosaic.Lib.Pipeline.Value
import Idealize.ShloMosaic.Lib.IdealHost
import Idealize.ShloMosaic.PureOps.Ideal.Laws
import proofs.«174812_j45294725103970_1_alg».proof.Proof.LibRowLayers
import proofs.«174812_j45294725103970_1_alg».proof.Proof.LibCatDot

noncomputable section

open scoped BigOperators

namespace Cert.EdgeHead

open Idealize.ShloMosaic Idealize.ShloMosaic.ValueIdx Cert.Lib.BiasDot Cert.Lib.Dense Cert.Lib.RowLayers

variable {m M K N : Nat}

/-- The hidden layer before its positive part: four products added left to right, plus the bias row. -/
def hid4 (Q H R T : (⟨2, ![M, 64]⟩ : Shape).Idx → EReal) (Wa Wb Wc Wd : (⟨2, ![64, 64]⟩ : Shape).Idx → EReal)
    (b : (⟨1, ![64]⟩ : Shape).Idx → EReal) : (⟨2, ![M, 64]⟩ : Shape).Idx → EReal :=
  fun i => (((mm Q Wa i + mm H Wb i) + mm R Wc i) + mm T Wd i) + b (ix1 (i 1))

/-- The score column of M edges. -/
def score (Q H E T : (⟨2, ![M, 64]⟩ : Shape).Idx → EReal)
    (Wr : (⟨2, ![64, 64]⟩ : Shape).Idx → EReal) (br : (⟨1, ![64]⟩ : Shape).Idx → EReal)
    (Wa Wb Wc Wd : (⟨2, ![64, 64]⟩ : Shape).Idx → EReal) (b1 : (⟨1, ![64]⟩ : Shape).Idx → EReal)
    (W2 : (⟨2, ![64, 128]⟩ : Shape).Idx → EReal) (b2 : (⟨1, ![128]⟩ : Shape).Idx → EReal)
    (Wh : (⟨2, ![128, 1]⟩ : Shape).Idx → EReal) (bh : (⟨1, ![1]⟩ : Shape).Idx → EReal) :
    (⟨2, ![M, 1]⟩ : Shape).Idx → EReal :=
  fun i => Ideal.logistic (lin (relu (lin (relu (hid4 Q H (lin E Wr br) T Wa Wb Wc Wd b1)) W2 b2)) Wh bh i)

/-- A product's entry in row p reads only row p of its left operand. -/
theorem mm_row (a : (⟨2, ![m, K]⟩ : Shape).Idx → EReal) (A : (⟨2, ![M, K]⟩ : Shape).Idx → EReal)
    (W : (⟨2, ![K, N]⟩ : Shape).Idx → EReal) (p : Fin m) (r : Fin M)
    (h : ∀ k : Fin K, a (ix2 p k) = A (ix2 r k)) (q : Fin N) : mm a W (ix2 p q) = mm A W (ix2 r q) := by
  show (∑ k : Fin K, a (ix2 p k) * W (ix2 k q)) = ∑ k : Fin K, A (ix2 r k) * W (ix2 k q)
  exact Finset.sum_congr rfl fun k _ => by rw [h k]

/-- So does a linear layer's. -/
theorem lin_row (a : (⟨2, ![m, K]⟩ : Shape).Idx → EReal) (A : (⟨2, ![M, K]⟩ : Shape).Idx → EReal)
    (W : (⟨2, ![K, N]⟩ : Shape).Idx → EReal) (b : (⟨1, ![N]⟩ : Shape).Idx → EReal) (p : Fin m) (r : Fin M)
    (h : ∀ k : Fin K, a (ix2 p k) = A (ix2 r k)) (q : Fin N) : lin a W b (ix2 p q) = lin A W b (ix2 r q) := by
  rw [lin_apply, lin_apply]
  exact congrArg (· + b (ix1 q)) (Finset.sum_congr rfl fun k _ => by rw [h k])

/-- The score of row p of a block is the score of row r of the whole array when the four feature rows agree. -/
theorem score_row (q h e t : (⟨2, ![m, 64]⟩ : Shape).Idx → EReal) (Q H E T : (⟨2, ![M, 64]⟩ : Shape).Idx → EReal)
    (Wr : (⟨2, ![64, 64]⟩ : Shape).Idx → EReal) (br : (⟨1, ![64]⟩ : Shape).Idx → EReal)
    (Wa Wb Wc Wd : (⟨2, ![64, 64]⟩ : Shape).Idx → EReal) (b1 : (⟨1, ![64]⟩ : Shape).Idx → EReal)
    (W2 : (⟨2, ![64, 128]⟩ : Shape).Idx → EReal) (b2 : (⟨1, ![128]⟩ : Shape).Idx → EReal)
    (Wh : (⟨2, ![128, 1]⟩ : Shape).Idx → EReal) (bh : (⟨1, ![1]⟩ : Shape).Idx → EReal)
    (p : Fin m) (r : Fin M)
    (hq : ∀ k : Fin 64, q (ix2 p k) = Q (ix2 r k)) (hh : ∀ k : Fin 64, h (ix2 p k) = H (ix2 r k))
    (he : ∀ k : Fin 64, e (ix2 p k) = E (ix2 r k)) (ht : ∀ k : Fin 64, t (ix2 p k) = T (ix2 r k)) :
    score q h e t Wr br Wa Wb Wc Wd b1 W2 b2 Wh bh (ix2 p (0 : Fin 1))
      = score Q H E T Wr br Wa Wb Wc Wd b1 W2 b2 Wh bh (ix2 r (0 : Fin 1)) := by
  have hrel : ∀ k : Fin 64, lin e Wr br (ix2 p k) = lin E Wr br (ix2 r k) := fun k => lin_row e E Wr br p r he k
  have hhid : ∀ k : Fin 64, relu (hid4 q h (lin e Wr br) t Wa Wb Wc Wd b1) (ix2 p k)
      = relu (hid4 Q H (lin E Wr br) T Wa Wb Wc Wd b1) (ix2 r k) := fun k => by
    refine congrArg (fun x : EReal => max x 0) ?_
    show (((mm q Wa (ix2 p k) + mm h Wb (ix2 p k)) + mm (lin e Wr br) Wc (ix2 p k)) + mm t Wd (ix2 p k)) + b1 (ix1 k)
      = (((mm Q Wa (ix2 r k) + mm H Wb (ix2 r k)) + mm (lin E Wr br) Wc (ix2 r k)) + mm T Wd (ix2 r k)) + b1 (ix1 k)
    rw [mm_row q Q Wa p r hq k, mm_row h H Wb p r hh k, mm_row (lin e Wr br) (lin E Wr br) Wc p r hrel k,
      mm_row t T Wd p r ht k]
  have h2 : ∀ k : Fin 128, relu (lin (relu (hid4 q h (lin e Wr br) t Wa Wb Wc Wd b1)) W2 b2) (ix2 p k)
      = relu (lin (relu (hid4 Q H (lin E Wr br) T Wa Wb Wc Wd b1)) W2 b2) (ix2 r k) := fun k =>
    congrArg (fun x : EReal => max x 0) (lin_row _ _ W2 b2 p r hhid k)
  exact congrArg Ideal.logistic (lin_row _ _ Wh bh p r h2 0)

/-- A sum over 256 positions as the sums over its four quarters, added left to right. -/
theorem sum_four (g : Fin 256 → EReal) :
    (∑ k : Fin 256, g k)
      = (((∑ i : Fin 64, g ⟨i.val, by omega⟩) + ∑ i : Fin 64, g ⟨64 + i.val, by omega⟩)
          + ∑ i : Fin 64, g ⟨128 + i.val, by omega⟩) + ∑ i : Fin 64, g ⟨192 + i.val, by omega⟩ := by
  have e1 := Fin.sum_univ_add (M := EReal) (a := 192) (b := 64) g
  have e2 := Fin.sum_univ_add (M := EReal) (a := 128) (b := 64) (fun i => g (Fin.castAdd 64 i))
  have e3 := Fin.sum_univ_add (M := EReal) (a := 64) (b := 64) (fun i => g (Fin.castAdd 64 (Fin.castAdd 64 i)))
  exact e1.trans (by rw [e2, e3]; rfl)

end Cert.EdgeHead

end
-- ==== Proof.BodyValue.lean ====
/-
  What the two kernel bodies leave in their output blocks, at the ideal values, as functions of the blocks they load.

  The projection body leaves  x · W + b  (the bias a 1 × 64 row repeated down the rows): a linear layer of the block.
  The scoring body leaves the score column of its 3200 edges: the relation rows e · Wr + br are formed in place,
  the hidden layer is the sum of four 64-wide products (the query, head, relation and tail rows against the four
  64 × 64 weights) plus the bias row, then two more layers and the logistic function. Narrowing to bf16 before each
  product, and a shape cast to the same shape, change nothing at the ideal values.
-/
import proofs.«174812_j45294725103970_1_alg».proof.Proof.Gen.KernelIdeal.Frame
import proofs.«174812_j45294725103970_1_alg».proof.Proof.EdgeHead

noncomputable section

open scoped BigOperators

namespace Cert.KernelIdeal.BodyValue

open Idealize.ShloMosaic Idealize.ShloMosaic.ValueIdx Idealize.ShloMosaic.Pipeline
open Cert.KernelIdeal Cert.KernelIdeal.Gen
open Cert.Lib.BiasDot Cert.Lib.Dense Cert.Lib.RowLayers Cert.EdgeHead

variable {M K N : Nat}

/-- A product into zero of two narrowed operands, each first cast to its own shape, is the plain product. -/
theorem mmLayer_eq (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (hb0 hb1 : FTy.bf16.bits < FTy.f32.bits)
    (hcX : (⟨2, ![M, K]⟩ : Shape).ShapeCasts ⟨2, ![M, K]⟩) (hcW : (⟨2, ![K, N]⟩ : Shape).ShapeCasts ⟨2, ![K, N]⟩) :
    FloatOps.matmul d none (truncf .bf16 (shapeCast ⟨2, ![M, K]⟩ X hcX) hb0) (truncf .bf16 (shapeCast ⟨2, ![K, N]⟩ W hcW) hb1)
      (constant ⟨2, ![M, N]⟩ .f32 0x00000000#32) = mm X W := by
  subst hd
  rw [shapeCast_self, shapeCast_self]
  funext i
  obtain ⟨p, q, rfl⟩ : ∃ (p : Fin M) (q : Fin N), i = ix2 p q := ⟨i 0, i 1, eq_ix2 i⟩
  exact Cert.Lib.PlainDot.matmul_zero_apply none (truncf .bf16 X hb0) (truncf .bf16 W hb1) p q

/-- The same with the left operand not cast. -/
theorem mmLayer_eq' (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (hb0 hb1 : FTy.bf16.bits < FTy.f32.bits)
    (hcW : (⟨2, ![K, N]⟩ : Shape).ShapeCasts ⟨2, ![K, N]⟩) :
    FloatOps.matmul d none (truncf .bf16 X hb0) (truncf .bf16 (shapeCast ⟨2, ![K, N]⟩ W hcW) hb1)
      (constant ⟨2, ![M, N]⟩ .f32 0x00000000#32) = mm X W := by
  subst hd
  rw [shapeCast_self]
  funext i
  obtain ⟨p, q, rfl⟩ : ∃ (p : Fin M) (q : Fin N), i = ix2 p q := ⟨i 0, i 1, eq_ix2 i⟩
  exact Cert.Lib.PlainDot.matmul_zero_apply none (truncf .bf16 X hb0) (truncf .bf16 W hb1) p q

/-- A bias row repeated down the rows and added, then the maximum with a splat zero: the positive part of the sum. -/
theorem reluRow_eq (S : FVec Ideal ⟨2, ![M, N]⟩ .f32) (x2 : FVec Ideal ⟨2, ![1, N]⟩ .f32)
    (h2 : (⟨2, ![1, N]⟩ : Shape).ShapeCasts ⟨2, ![1, N]⟩) (hbr : (⟨2, ![1, N]⟩ : Shape).Broadcasts ⟨2, ![M, N]⟩) :
    maximumf (addf S (broadcastTo ⟨2, ![M, N]⟩ (shapeCast ⟨2, ![1, N]⟩ x2 h2) hbr))
      (broadcast ⟨2, ![M, N]⟩ (Scalar.ofBits (F := Ideal) .f32 0x00000000#32))
      = relu (addRow S (rowVec x2)) := by
  funext i
  obtain ⟨p, q, rfl⟩ : ∃ (p : Fin M) (q : Fin N), i = ix2 p q := ⟨i 0, i 1, eq_ix2 i⟩
  rw [maximumf_apply, broadcast_apply, addf_apply, rowRepeat_apply]
  show max _ (Ideal.ofBits .f32 0x00000000#32) = _
  rw [Ideal.ofBits_zero_f32]
  rfl

theorem hz : (![0, 0] : Fin 2 → Nat) = fun _ => 0 := funext fun a => by fin_cases a <;> rfl

/-- The projection body's block: the linear layer of the loaded rows, the weight and the bias row. -/
theorem out0_eq (x0 : Vec Ideal S5000x64 .f32) (x1 : Vec Ideal S64x64 .f32) (x2 : Vec Ideal S1x64 .f32) :
    out0_3 (F := Ideal) x0 x1 x2 = lin x0 x1 (rowVec x2) := by
  unfold out0_3
  rw [View.canon_unit_zero hz]
  simp only [View.ld_unit_zero (S := S5000x64) hz, View.ld_unit_zero (S := S64x64) hz, View.ld_unit_zero (S := S1x64) hz]
  exact linLayer_eq dot_S5000x64_S64x64_S5000x64_1_0_0_1_n_n rfl x0 x1 x2 bitsLt_bf16_f32 bitsLt_bf16_f32
    shapeCasts_S1x64_S1x64 broadcasts_S1x64_S5000x64

/-- The two first products of the hidden layer, added. -/
theorem pay4_eq (x1 x2 : Vec Ideal S3200x64 .f32) (x6 x7 : Vec Ideal S64x64 .f32) :
    k1_pay4 (F := Ideal) x1 x2 x6 x7 = fun i => mm x1 x6 i + mm x2 x7 i :=
  congrArg₂ (fun a b : FVec Ideal S3200x64 .f32 => addf a b)
    (mmLayer_eq dot_S3200x64_S64x64_S3200x64_1_0_0_1_n_n rfl x1 x6 bitsLt_bf16_f32 bitsLt_bf16_f32
      shapeCasts_S3200x64_S3200x64 shapeCasts_S64x64_S64x64)
    (mmLayer_eq dot_S3200x64_S64x64_S3200x64_1_0_0_1_n_n rfl x2 x7 bitsLt_bf16_f32 bitsLt_bf16_f32
      shapeCasts_S3200x64_S3200x64 shapeCasts_S64x64_S64x64)

/-- The relation rows, formed in place, against their weight. -/
theorem pay5_eq (x0 : Vec Ideal S3200x64 .f32) (x4 : Vec Ideal S64x64 .f32) (x5 : Vec Ideal S1x64 .f32)
    (x8 : Vec Ideal S64x64 .f32) :
    k1_pay5 (F := Ideal) x0 x4 x5 x8 = mm (lin x0 x4 (rowVec x5)) x8 :=
  (mmLayer_eq' dot_S3200x64_S64x64_S3200x64_1_0_0_1_n_n rfl _ x8 bitsLt_bf16_f32 bitsLt_bf16_f32
      shapeCasts_S64x64_S64x64).trans
    (congrArg (fun X : FVec Ideal S3200x64 .f32 => mm X x8)
      (linLayer_eq dot_S3200x64_S64x64_S3200x64_1_0_0_1_n_n rfl x0 x4 x5 bitsLt_bf16_f32 bitsLt_bf16_f32
        shapeCasts_S1x64_S1x64 broadcasts_S1x64_S3200x64))

/-- The scoring body's payload is the score column of the loaded rows. -/
theorem pay_eq (x0 x1 x2 x3 : Vec Ideal S3200x64 .f32) (x4 : Vec Ideal S64x64 .f32) (x5 : Vec Ideal S1x64 .f32)
    (x6 x7 x8 x9 : Vec Ideal S64x64 .f32) (x10 : Vec Ideal S1x64 .f32) (x11 : Vec Ideal S64x128 .f32)
    (x12 : Vec Ideal S1x128 .f32) (x13 : Vec Ideal S128x1 .f32) (x14 : Vec Ideal S1x1 .f32) :
    k1_pay1 (F := Ideal) (k1_pay2 x3) (k1_pay3 x9) (k1_pay4 x1 x2 x6 x7) (k1_pay5 x0 x4 x5 x8) x10 x11 x12 x13 x14
      = score x1 x2 x0 x3 x4 (rowVec x5) x6 x7 x8 x9 (rowVec x10) x11 (rowVec x12) x13 (rowVec x14) := by
  rw [pay4_eq, pay5_eq]
  have e36 : FloatOps.matmul dot_S3200x64_S64x64_S3200x64_1_0_0_1_n_n none (k1_pay2 (F := Ideal) x3) (k1_pay3 (F := Ideal) x9)
      (constant S3200x64 .f32 0x00000000#32) = mm x3 x9 :=
    mmLayer_eq dot_S3200x64_S64x64_S3200x64_1_0_0_1_n_n rfl x3 x9 bitsLt_bf16_f32 bitsLt_bf16_f32
      shapeCasts_S3200x64_S3200x64 shapeCasts_S64x64_S64x64
  unfold k1_pay1
  dsimp only
  simp only [matmul]
  rw [e36]
  rw [reluRow_eq _ x10 shapeCasts_S1x64_S1x64 broadcasts_S1x64_S3200x64]
  rw [reluLayer_eq dot_S3200x64_S64x128_S3200x128_1_0_0_1_n_n rfl _ x11 x12 bitsLt_bf16_f32 bitsLt_bf16_f32
    shapeCasts_S1x128_S1x128 broadcasts_S1x128_S3200x128]
  rw [linLayer_eq dot_S3200x128_S128x1_S3200x1_1_0_0_1_n_n rfl _ x13 x14 bitsLt_bf16_f32 bitsLt_bf16_f32
    shapeCasts_S1x1_S1x1 broadcasts_S1x1_S3200x1]
  rfl

/-- The scoring body's block. -/
theorem out1_eq (x0 x1 x2 x3 : Vec Ideal S3200x64 .f32) (x4 : Vec Ideal S64x64 .f32) (x5 : Vec Ideal S1x64 .f32)
    (x6 x7 x8 x9 : Vec Ideal S64x64 .f32) (x10 : Vec Ideal S1x64 .f32) (x11 : Vec Ideal S64x128 .f32)
    (x12 : Vec Ideal S1x128 .f32) (x13 : Vec Ideal S128x1 .f32) (x14 : Vec Ideal S1x1 .f32) :
    out1_15 (F := Ideal) x0 x1 x2 x3 x4 x5 x6 x7 x8 x9 x10 x11 x12 x13 x14
      = score x1 x2 x0 x3 x4 (rowVec x5) x6 x7 x8 x9 (rowVec x10) x11 (rowVec x12) x13 (rowVec x14) := by
  unfold out1_15
  rw [View.canon_unit_zero hz]
  simp only [View.ld_unit_zero (S := S3200x64) hz, View.ld_unit_zero (S := S64x64) hz, View.ld_unit_zero (S := S1x64) hz,
    View.ld_unit_zero (S := S64x128) hz, View.ld_unit_zero (S := S1x128) hz, View.ld_unit_zero (S := S128x1) hz,
    View.ld_unit_zero (S := S1x1) hz]
  exact pay_eq x0 x1 x2 x3 x4 x5 x6 x7 x8 x9 x10 x11 x12 x13 x14

end Cert.KernelIdeal.BodyValue

end
-- ==== Proof.Blocks.lean ====
/-
  From blocks to arrays: what each kernel region leaves in its output array, as one function of the contents the region
  is entered with.

  The projection region walks the 50000 node rows in ten blocks of 5000; block t of its output is the linear layer of
  block t of the rows, so the whole output array is the linear layer of the whole input array. The scoring region walks
  the 800000 edges in 250 blocks of 3200; the four feature arrays move with the output block and the weights are read
  whole at every point, so block t of the output column is the score of rows 3200 t … 3200 t + 3199, and the whole
  column is the score of the whole arrays. Row r lies in block r / 5000 (resp. r / 3200): the blocks cover the array.
-/
import proofs.«174812_j45294725103970_1_alg».proof.Proof.BodyValue
import Idealize.ShloMosaic.Lib.Pipeline.Value

set_option maxRecDepth 16384

noncomputable section

open scoped BigOperators

namespace Cert.KernelIdeal.Blocks

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.KernelIdeal.BodyValue
open Cert.Lib.BiasDot Cert.Lib.Dense Cert.Lib.RowLayers Cert.EdgeHead

variable (V : (c : Dev nD) → (b : Ref sig .tc) → Buf (Elt Ideal) ((c : Thread nD τ).loc b))

/-! ## The projection region -/

/-- The index maps over the ten grid points: the rows' and the output's block index is the point, the weight and the
    bias row are read whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A linear layer's entry from the rows and columns it reads. -/
theorem lin_block {m M K N : Nat} (a : (⟨2, ![m, K]⟩ : Shape).Idx → EReal) (w : (⟨2, ![K, N]⟩ : Shape).Idx → EReal)
    (r : (⟨2, ![1, N]⟩ : Shape).Idx → EReal) (A : (⟨2, ![M, K]⟩ : Shape).Idx → EReal) (W : (⟨2, ![K, N]⟩ : Shape).Idx → EReal)
    (R : (⟨2, ![1, N]⟩ : Shape).Idx → EReal) (j : (⟨2, ![m, N]⟩ : Shape).Idx) (i : (⟨2, ![M, N]⟩ : Shape).Idx)
    (h0 : ∀ k : Fin K, a (ix2 (j 0) k) = A (ix2 (i 0) k)) (h1 : ∀ k : Fin K, w (ix2 k (j 1)) = W (ix2 k (i 1)))
    (h2 : r (ix2 (0 : Fin 1) (j 1)) = R (ix2 (0 : Fin 1) (i 1))) :
    lin a w (rowVec r) j = lin A W (rowVec R) i := by
  obtain ⟨p, q, rfl⟩ : ∃ (p : Fin m) (q : Fin N), j = ix2 p q := ⟨j 0, j 1, eq_ix2 j⟩
  obtain ⟨p', q', rfl⟩ : ∃ (p' : Fin M) (q' : Fin N), i = ix2 p' q' := ⟨i 0, i 1, eq_ix2 i⟩
  have h0' : ∀ k : Fin K, a (ix2 p k) = A (ix2 p' k) := h0
  have h1' : ∀ k : Fin K, w (ix2 k q) = W (ix2 k q') := h1
  have h2' : r (ix2 (0 : Fin 1) q) = R (ix2 (0 : Fin 1) q') := h2
  rw [lin_apply, lin_apply]
  show _ + r (ix2 (0 : Fin 1) q) = _ + R (ix2 (0 : Fin 1) q')
  rw [h2']
  exact congrArg (· + R (ix2 (0 : Fin 1) q')) (Finset.sum_congr rfl fun k _ => by rw [h0' k, h1' k])

/-- What point t writes back is block t of the linear layer of the arrays as the region finds them. -/
theorem flushed0_eq (c : Dev nD) (t : Fin cfg0.N) :
    (dat0 (F := Ideal) V c).flushed 3 t = ((cfg0.win 3).blk t).view.read (Elt Ideal)
      (lin (V c main_arg1 : S50000x64.Idx → EReal) (V c main_arg7 : S64x64.Idx → EReal)
        (rowVec (V c main_v4 : S1x64.Idx → EReal))) := by
  show (cfg0.win 3).cut (grid0.coords t) ((dat0 V c).after 3 t) = _
  rw [after0_3]
  obtain ⟨e0, e1, e2, e3, e4, e5, e6, e7⟩ := idx_facts0 t
  funext j
  refine (congrFun (out0_eq (iblk0 V c 0 t) (iblk0 V c 1 t) (iblk0 V c 2 t)) j).trans ?_
  refine lin_block (iblk0 V c 0 t : S5000x64.Idx → EReal) (iblk0 V c 1 t : S64x64.Idx → EReal)
    (iblk0 V c 2 t : S1x64.Idx → EReal) (V c main_arg1 : S50000x64.Idx → EReal) (V c main_arg7 : S64x64.Idx → EReal)
    (V c main_v4 : S1x64.Idx → EReal) j (((cfg0.win 3).blk t).view.emb j) (fun k => ?_) (fun k => ?_) ?_
  · show V c main_arg1 (((cfg0.win 0).blk t).view.emb (ix2 (j 0) k))
      = V c main_arg1 (ix2 ((((cfg0.win 3).blk t).view.emb j : S50000x64.Idx) 0) k)
    refine congrArg (V c main_arg1) ?_
    funext a; apply Fin.ext
    match a with
    | ⟨0, _⟩ => show win0_0.index t (0 : Fin 2) * 5000 + 1 * (j 0).val = win0_3.index t (0 : Fin 2) * 5000 + 1 * (j 0).val; rw [e0, e6]
    | ⟨1, _⟩ => show win0_0.index t (1 : Fin 2) * 64 + 1 * k.val = k.val; rw [e1]; omega
  · show V c main_arg7 (((cfg0.win 1).blk t).view.emb (ix2 k (j 1)))
      = V c main_arg7 (ix2 k ((((cfg0.win 3).blk t).view.emb j : S50000x64.Idx) 1))
    refine congrArg (V c main_arg7) ?_
    funext a; apply Fin.ext
    match a with
    | ⟨0, _⟩ => show win0_1.index t (0 : Fin 2) * 64 + 1 * k.val = k.val; rw [e2]; omega
    | ⟨1, _⟩ => show win0_1.index t (1 : Fin 2) * 64 + 1 * (j 1).val = win0_3.index t (1 : Fin 2) * 64 + 1 * (j 1).val; rw [e3, e7]
  · show V c main_v4 (((cfg0.win 2).blk t).view.emb (ix2 (0 : Fin 1) (j 1)))
      = V c main_v4 (ix2 (0 : Fin 1) ((((cfg0.win 3).blk t).view.emb j : S50000x64.Idx) 1))
    refine congrArg (V c main_v4) ?_
    funext a; apply Fin.ext
    match a with
    | ⟨0, _⟩ => show win0_2.index t (0 : Fin 2) * 1 + 1 * 0 = 0; rw [e4]
    | ⟨1, _⟩ => show win0_2.index t (1 : Fin 2) * 64 + 1 * (j 1).val = win0_3.index t (1 : Fin 2) * 64 + 1 * (j 1).val; rw [e5, e7]

/-- An index of the output array is in point t's block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v5).slice (win0_3.rect t)).set ↔ _
  rw [View.set_slice_whole, Rect.mem_set_unit]
  exact Iff.rfl

/-- Row r of the output lies in the block of point r / 5000. -/
theorem cover0 (i : S50000x64.Idx) :
    ∃ t : Fin cfg0.N, (cfg0.win 3).flush t = true ∧ i ∈ ((cfg0.win 3).blk t).view.set := by
  have hN : grid0.N = 10 := N_0
  have hi0 : (i 0).val < 50000 := (i 0).isLt
  have hi1 : (i 1).val < 64 := (i 1).isLt
  have ht : (i 0).val / 5000 < grid0.N := by rw [hN]; omega
  obtain ⟨e0, e1, e2, e3, e4, e5, e6, e7⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e7]; omega

/-- The projected node array after the region: the linear layer of the node rows, the weight and the bias row. -/
theorem final0 (c : Dev nD) :
    (dat0 (F := Ideal) V c).arrAt 3 cfg0.N
      = lin (V c main_arg1 : S50000x64.Idx → EReal) (V c main_arg7 : S64x64.Idx → EReal)
          (rowVec (V c main_v4 : S1x64.Idx → EReal)) :=
  (dat0 (F := Ideal) V c).arrAt_eq_of_cover 3 _ (fun t _ => flushed0_eq V c t) cover0

/-! ## The scoring region -/

/-- The index maps over the 250 grid points: the four feature arrays' and the output's block index is the point, every
    weight and bias row is read whole. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = 0 ∧ win1_13.index t (1 : Fin 2) = 0
    ∧ win1_14.index t (0 : Fin 2) = 0 ∧ win1_14.index t (1 : Fin 2) = 0
    ∧ win1_15.index t (0 : Fin 2) = t.val ∧ win1_15.index t (1 : Fin 2) = 0 :=
  (by decide +kernel : ∀ t : Fin grid1.N, _)

theorem whole1_4 (c : Dev nD) (t : Fin cfg1.N) : (iblk1 (F := Ideal) V c 4 t : S64x64.Idx → EReal) = V c main_arg9 := by
  obtain ⟨a0, b0, a1, b1, a2, b2, a3, b3, a4, b4, a5, b5, a6, b6, a7, b7, a8, b8, a9, b9, a10, b10, a11, b11, a12, b12, a13, b13, a14, b14, a15, b15⟩ := idx_facts1 t
  funext y
  show V c main_arg9 (((cfg1.win 4).blk t).view.emb y) = V c main_arg9 y
  refine congrArg (V c main_arg9) ?_
  funext a; apply Fin.ext
  match a with
  | ⟨0, _⟩ => show win1_4.index t (0 : Fin 2) * 64 + 1 * (y 0).val = (y 0).val; rw [a4]; omega
  | ⟨1, _⟩ => show win1_4.index t (1 : Fin 2) * 64 + 1 * (y 1).val = (y 1).val; rw [b4]; omega

theorem whole1_5 (c : Dev nD) (t : Fin cfg1.N) : (iblk1 (F := Ideal) V c 5 t : S1x64.Idx → EReal) = V c main_v42 := by
  obtain ⟨a0, b0, a1, b1, a2, b2, a3, b3, a4, b4, a5, b5, a6, b6, a7, b7, a8, b8, a9, b9, a10, b10, a11, b11, a12, b12, a13, b13, a14, b14, a15, b15⟩ := idx_facts1 t
  funext y
  show V c main_v42 (((cfg1.win 5).blk t).view.emb y) = V c main_v42 y
  refine congrArg (V c main_v42) ?_
  funext a; apply Fin.ext
  match a with
  | ⟨0, _⟩ => show win1_5.index t (0 : Fin 2) * 1 + 1 * (y 0).val = (y 0).val; rw [a5]; omega
  | ⟨1, _⟩ => show win1_5.index t (1 : Fin 2) * 64 + 1 * (y 1).val = (y 1).val; rw [b5]; omega

theorem whole1_6 (c : Dev nD) (t : Fin cfg1.N) : (iblk1 (F := Ideal) V c 6 t : S64x64.Idx → EReal) = V c main_v38 := by
  obtain ⟨a0, b0, a1, b1, a2, b2, a3, b3, a4, b4, a5, b5, a6, b6, a7, b7, a8, b8, a9, b9, a10, b10, a11, b11, a12, b12, a13, b13, a14, b14, a15, b15⟩ := idx_facts1 t
  funext y
  show V c main_v38 (((cfg1.win 6).blk t).view.emb y) = V c main_v38 y
  refine congrArg (V c main_v38) ?_
  funext a; apply Fin.ext
  match a with
  | ⟨0, _⟩ => show win1_6.index t (0 : Fin 2) * 64 + 1 * (y 0).val = (y 0).val; rw [a6]; omega
  | ⟨1, _⟩ => show win1_6.index t (1 : Fin 2) * 64 + 1 * (y 1).val = (y 1).val; rw [b6]; omega

theorem whole1_7 (c : Dev nD) (t : Fin cfg1.N) : (iblk1 (F := Ideal) V c 7 t : S64x64.Idx → EReal) = V c main_v39 := by
  obtain ⟨a0, b0, a1, b1, a2, b2, a3, b3, a4, b4, a5, b5, a6, b6, a7, b7, a8, b8, a9, b9, a10, b10, a11, b11, a12, b12, a13, b13, a14, b14, a15, b15⟩ := idx_facts1 t
  funext y
  show V c main_v39 (((cfg1.win 7).blk t).view.emb y) = V c main_v39 y
  refine congrArg (V c main_v39) ?_
  funext a; apply Fin.ext
  match a with
  | ⟨0, _⟩ => show win1_7.index t (0 : Fin 2) * 64 + 1 * (y 0).val = (y 0).val; rw [a7]; omega
  | ⟨1, _⟩ => show win1_7.index t (1 : Fin 2) * 64 + 1 * (y 1).val = (y 1).val; rw [b7]; omega

theorem whole1_8 (c : Dev nD) (t : Fin cfg1.N) : (iblk1 (F := Ideal) V c 8 t : S64x64.Idx → EReal) = V c main_v40 := by
  obtain ⟨a0, b0, a1, b1, a2, b2, a3, b3, a4, b4, a5, b5, a6, b6, a7, b7, a8, b8, a9, b9, a10, b10, a11, b11, a12, b12, a13, b13, a14, b14, a15, b15⟩ := idx_facts1 t
  funext y
  show V c main_v40 (((cfg1.win 8).blk t).view.emb y) = V c main_v40 y
  refine congrArg (V c main_v40) ?_
  funext a; apply Fin.ext
  match a with
  | ⟨0, _⟩ => show win1_8.index t (0 : Fin 2) * 64 + 1 * (y 0).val = (y 0).val; rw [a8]; omega
  | ⟨1, _⟩ => show win1_8.index t (1 : Fin 2) * 64 + 1 * (y 1).val = (y 1).val; rw [b8]; omega

theorem whole1_9 (c : Dev nD) (t : Fin cfg1.N) : (iblk1 (F := Ideal) V c 9 t : S64x64.Idx → EReal) = V c main_v41 := by
  obtain ⟨a0, b0, a1, b1, a2, b2, a3, b3, a4, b4, a5, b5, a6, b6, a7, b7, a8, b8, a9, b9, a10, b10, a11, b11, a12, b12, a13, b13, a14, b14, a15, b15⟩ := idx_facts1 t
  funext y
  show V c main_v41 (((cfg1.win 9).blk t).view.emb y) = V c main_v41 y
  refine congrArg (V c main_v41) ?_
  funext a; apply Fin.ext
  match a with
  | ⟨0, _⟩ => show win1_9.index t (0 : Fin 2) * 64 + 1 * (y 0).val = (y 0).val; rw [a9]; omega
  | ⟨1, _⟩ => show win1_9.index t (1 : Fin 2) * 64 + 1 * (y 1).val = (y 1).val; rw [b9]; omega

theorem whole1_10 (c : Dev nD) (t : Fin cfg1.N) : (iblk1 (F := Ideal) V c 10 t : S1x64.Idx → EReal) = V c main_v43 := by
  obtain ⟨a0, b0, a1, b1, a2, b2, a3, b3, a4, b4, a5, b5, a6, b6, a7, b7, a8, b8, a9, b9, a10, b10, a11, b11, a12, b12, a13, b13, a14, b14, a15, b15⟩ := idx_facts1 t
  funext y
  show V c main_v43 (((cfg1.win 10).blk t).view.emb y) = V c main_v43 y
  refine congrArg (V c main_v43) ?_
  funext a; apply Fin.ext
  match a with
  | ⟨0, _⟩ => show win1_10.index t (0 : Fin 2) * 1 + 1 * (y 0).val = (y 0).val; rw [a10]; omega
  | ⟨1, _⟩ => show win1_10.index t (1 : Fin 2) * 64 + 1 * (y 1).val = (y 1).val; rw [b10]; omega

theorem whole1_11 (c : Dev nD) (t : Fin cfg1.N) : (iblk1 (F := Ideal) V c 11 t : S64x128.Idx → EReal) = V c main_arg13 := by
  obtain ⟨a0, b0, a1, b1, a2, b2, a3, b3, a4, b4, a5, b5, a6, b6, a7, b7, a8, b8, a9, b9, a10, b10, a11, b11, a12, b12, a13, b13, a14, b14, a15, b15⟩ := idx_facts1 t
  funext y
  show V c main_arg13 (((cfg1.win 11).blk t).view.emb y) = V c main_arg13 y
  refine congrArg (V c main_arg13) ?_
  funext a; apply Fin.ext
  match a with
  | ⟨0, _⟩ => show win1_11.index t (0 : Fin 2) * 64 + 1 * (y 0).val = (y 0).val; rw [a11]; omega
  | ⟨1, _⟩ => show win1_11.index t (1 : Fin 2) * 128 + 1 * (y 1).val = (y 1).val; rw [b11]; omega

theorem whole1_12 (c : Dev nD) (t : Fin cfg1.N) : (iblk1 (F := Ideal) V c 12 t : S1x128.Idx → EReal) = V c main_v44 := by
  obtain ⟨a0, b0, a1, b1, a2, b2, a3, b3, a4, b4, a5, b5, a6, b6, a7, b7, a8, b8, a9, b9, a10, b10, a11, b11, a12, b12, a13, b13, a14, b14, a15, b15⟩ := idx_facts1 t
  funext y
  show V c main_v44 (((cfg1.win 12).blk t).view.emb y) = V c main_v44 y
  refine congrArg (V c main_v44) ?_
  funext a; apply Fin.ext
  match a with
  | ⟨0, _⟩ => show win1_12.index t (0 : Fin 2) * 1 + 1 * (y 0).val = (y 0).val; rw [a12]; omega
  | ⟨1, _⟩ => show win1_12.index t (1 : Fin 2) * 128 + 1 * (y 1).val = (y 1).val; rw [b12]; omega

theorem whole1_13 (c : Dev nD) (t : Fin cfg1.N) : (iblk1 (F := Ideal) V c 13 t : S128x1.Idx → EReal) = V c main_arg15 := by
  obtain ⟨a0, b0, a1, b1, a2, b2, a3, b3, a4, b4, a5, b5, a6, b6, a7, b7, a8, b8, a9, b9, a10, b10, a11, b11, a12, b12, a13, b13, a14, b14, a15, b15⟩ := idx_facts1 t
  funext y
  show V c main_arg15 (((cfg1.win 13).blk t).view.emb y) = V c main_arg15 y
  refine congrArg (V c main_arg15) ?_
  funext a; apply Fin.ext
  match a with
  | ⟨0, _⟩ => show win1_13.index t (0 : Fin 2) * 128 + 1 * (y 0).val = (y 0).val; rw [a13]; omega
  | ⟨1, _⟩ => show win1_13.index t (1 : Fin 2) * 1 + 1 * (y 1).val = (y 1).val; rw [b13]; omega

theorem whole1_14 (c : Dev nD) (t : Fin cfg1.N) : (iblk1 (F := Ideal) V c 14 t : S1x1.Idx → EReal) = V c main_v45 := by
  obtain ⟨a0, b0, a1, b1, a2, b2, a3, b3, a4, b4, a5, b5, a6, b6, a7, b7, a8, b8, a9, b9, a10, b10, a11, b11, a12, b12, a13, b13, a14, b14, a15, b15⟩ := idx_facts1 t
  funext y
  show V c main_v45 (((cfg1.win 14).blk t).view.emb y) = V c main_v45 y
  refine congrArg (V c main_v45) ?_
  funext a; apply Fin.ext
  match a with
  | ⟨0, _⟩ => show win1_14.index t (0 : Fin 2) * 1 + 1 * (y 0).val = (y 0).val; rw [a14]; omega
  | ⟨1, _⟩ => show win1_14.index t (1 : Fin 2) * 1 + 1 * (y 1).val = (y 1).val; rw [b14]; omega

theorem rows1_0 (c : Dev nD) (t : Fin cfg1.N) (j : S3200x1.Idx) (k : Fin 64) :
    (iblk1 (F := Ideal) V c 0 t : S3200x64.Idx → EReal) (ix2 (j 0) k)
      = (V c main_arg2 : S800000x64.Idx → EReal) (ix2 ((((cfg1.win 15).blk t).view.emb j : S800000x1.Idx) 0) k) := by
  obtain ⟨a0, b0, a1, b1, a2, b2, a3, b3, a4, b4, a5, b5, a6, b6, a7, b7, a8, b8, a9, b9, a10, b10, a11, b11, a12, b12, a13, b13, a14, b14, a15, b15⟩ := idx_facts1 t
  show V c main_arg2 (((cfg1.win 0).blk t).view.emb (ix2 (j 0) k)) = V c main_arg2 (ix2 ((((cfg1.win 15).blk t).view.emb j : S800000x1.Idx) 0) k)
  refine congrArg (V c main_arg2) ?_
  funext a; apply Fin.ext
  match a with
  | ⟨0, _⟩ => show win1_0.index t (0 : Fin 2) * 3200 + 1 * (j 0).val = win1_15.index t (0 : Fin 2) * 3200 + 1 * (j 0).val; rw [a0, a15]
  | ⟨1, _⟩ => show win1_0.index t (1 : Fin 2) * 64 + 1 * k.val = k.val; rw [b0]; omega

theorem rows1_1 (c : Dev nD) (t : Fin cfg1.N) (j : S3200x1.Idx) (k : Fin 64) :
    (iblk1 (F := Ideal) V c 1 t : S3200x64.Idx → EReal) (ix2 (j 0) k)
      = (V c main_v23 : S800000x64.Idx → EReal) (ix2 ((((cfg1.win 15).blk t).view.emb j : S800000x1.Idx) 0) k) := by
  obtain ⟨a0, b0, a1, b1, a2, b2, a3, b3, a4, b4, a5, b5, a6, b6, a7, b7, a8, b8, a9, b9, a10, b10, a11, b11, a12, b12, a13, b13, a14, b14, a15, b15⟩ := idx_facts1 t
  show V c main_v23 (((cfg1.win 1).blk t).view.emb (ix2 (j 0) k)) = V c main_v23 (ix2 ((((cfg1.win 15).blk t).view.emb j : S800000x1.Idx) 0) k)
  refine congrArg (V c main_v23) ?_
  funext a; apply Fin.ext
  match a with
  | ⟨0, _⟩ => show win1_1.index t (0 : Fin 2) * 3200 + 1 * (j 0).val = win1_15.index t (0 : Fin 2) * 3200 + 1 * (j 0).val; rw [a1, a15]
  | ⟨1, _⟩ => show win1_1.index t (1 : Fin 2) * 64 + 1 * k.val = k.val; rw [b1]; omega

theorem rows1_2 (c : Dev nD) (t : Fin cfg1.N) (j : S3200x1.Idx) (k : Fin 64) :
    (iblk1 (F := Ideal) V c 2 t : S3200x64.Idx → EReal) (ix2 (j 0) k)
      = (V c main_v30 : S800000x64.Idx → EReal) (ix2 ((((cfg1.win 15).blk t).view.emb j : S800000x1.Idx) 0) k) := by
  obtain ⟨a0, b0, a1, b1, a2, b2, a3, b3, a4, b4, a5, b5, a6, b6, a7, b7, a8, b8, a9, b9, a10, b10, a11, b11, a12, b12, a13, b13, a14, b14, a15, b15⟩ := idx_facts1 t
  show V c main_v30 (((cfg1.win 2).blk t).view.emb (ix2 (j 0) k)) = V c main_v30 (ix2 ((((cfg1.win 15).blk t).view.emb j : S800000x1.Idx) 0) k)
  refine congrArg (V c main_v30) ?_
  funext a; apply Fin.ext
  match a with
  | ⟨0, _⟩ => show win1_2.index t (0 : Fin 2) * 3200 + 1 * (j 0).val = win1_15.index t (0 : Fin 2) * 3200 + 1 * (j 0).val; rw [a2, a15]
  | ⟨1, _⟩ => show win1_2.index t (1 : Fin 2) * 64 + 1 * k.val = k.val; rw [b2]; omega

theorem rows1_3 (c : Dev nD) (t : Fin cfg1.N) (j : S3200x1.Idx) (k : Fin 64) :
    (iblk1 (F := Ideal) V c 3 t : S3200x64.Idx → EReal) (ix2 (j 0) k)
      = (V c main_v37 : S800000x64.Idx → EReal) (ix2 ((((cfg1.win 15).blk t).view.emb j : S800000x1.Idx) 0) k) := by
  obtain ⟨a0, b0, a1, b1, a2, b2, a3, b3, a4, b4, a5, b5, a6, b6, a7, b7, a8, b8, a9, b9, a10, b10, a11, b11, a12, b12, a13, b13, a14, b14, a15, b15⟩ := idx_facts1 t
  show V c main_v37 (((cfg1.win 3).blk t).view.emb (ix2 (j 0) k)) = V c main_v37 (ix2 ((((cfg1.win 15).blk t).view.emb j : S800000x1.Idx) 0) k)
  refine congrArg (V c main_v37) ?_
  funext a; apply Fin.ext
  match a with
  | ⟨0, _⟩ => show win1_3.index t (0 : Fin 2) * 3200 + 1 * (j 0).val = win1_15.index t (0 : Fin 2) * 3200 + 1 * (j 0).val; rw [a3, a15]
  | ⟨1, _⟩ => show win1_3.index t (1 : Fin 2) * 64 + 1 * k.val = k.val; rw [b3]; omega

/-- The score at an entry of a block's column is the score at an entry of the whole column when the four feature rows
    agree (the weights being the same). -/
theorem score_block {m M : Nat} (q h e t : (⟨2, ![m, 64]⟩ : Shape).Idx → EReal) (Q H E T : (⟨2, ![M, 64]⟩ : Shape).Idx → EReal)
    (Wr : (⟨2, ![64, 64]⟩ : Shape).Idx → EReal) (br : (⟨1, ![64]⟩ : Shape).Idx → EReal)
    (Wa Wb Wc Wd : (⟨2, ![64, 64]⟩ : Shape).Idx → EReal) (b1 : (⟨1, ![64]⟩ : Shape).Idx → EReal)
    (W2 : (⟨2, ![64, 128]⟩ : Shape).Idx → EReal) (b2 : (⟨1, ![128]⟩ : Shape).Idx → EReal)
    (Wh : (⟨2, ![128, 1]⟩ : Shape).Idx → EReal) (bh : (⟨1, ![1]⟩ : Shape).Idx → EReal)
    (j : (⟨2, ![m, 1]⟩ : Shape).Idx) (i : (⟨2, ![M, 1]⟩ : Shape).Idx)
    (hq : ∀ k : Fin 64, q (ix2 (j 0) k) = Q (ix2 (i 0) k)) (hh : ∀ k : Fin 64, h (ix2 (j 0) k) = H (ix2 (i 0) k))
    (he : ∀ k : Fin 64, e (ix2 (j 0) k) = E (ix2 (i 0) k)) (ht : ∀ k : Fin 64, t (ix2 (j 0) k) = T (ix2 (i 0) k)) :
    score q h e t Wr br Wa Wb Wc Wd b1 W2 b2 Wh bh j = score Q H E T Wr br Wa Wb Wc Wd b1 W2 b2 Wh bh i := by
  obtain ⟨p, z, rfl⟩ : ∃ (p : Fin m) (z : Fin 1), j = ix2 p z := ⟨j 0, j 1, eq_ix2 j⟩
  obtain ⟨r, z', rfl⟩ : ∃ (r : Fin M) (z' : Fin 1), i = ix2 r z' := ⟨i 0, i 1, eq_ix2 i⟩
  have hz : z = 0 := Subsingleton.elim _ _
  have hz' : z' = 0 := Subsingleton.elim _ _
  subst hz hz'
  exact score_row q h e t Q H E T Wr br Wa Wb Wc Wd b1 W2 b2 Wh bh p r hq hh he ht

/-- What point t writes back is block t of the score column of the arrays as the region finds them. -/
theorem flushed1_eq (c : Dev nD) (t : Fin cfg1.N) :
    (dat1 (F := Ideal) V c).flushed 15 t = ((cfg1.win 15).blk t).view.read (Elt Ideal)
      (score (V c main_v23 : S800000x64.Idx → EReal) (V c main_v30 : S800000x64.Idx → EReal)
        (V c main_arg2 : S800000x64.Idx → EReal) (V c main_v37 : S800000x64.Idx → EReal)
        (V c main_arg9 : S64x64.Idx → EReal) (rowVec (V c main_v42 : S1x64.Idx → EReal))
        (V c main_v38 : S64x64.Idx → EReal) (V c main_v39 : S64x64.Idx → EReal) (V c main_v40 : S64x64.Idx → EReal)
        (V c main_v41 : S64x64.Idx → EReal) (rowVec (V c main_v43 : S1x64.Idx → EReal))
        (V c main_arg13 : S64x128.Idx → EReal) (rowVec (V c main_v44 : S1x128.Idx → EReal))
        (V c main_arg15 : S128x1.Idx → EReal) (rowVec (V c main_v45 : S1x1.Idx → EReal))) := by
  show (cfg1.win 15).cut (grid1.coords t) ((dat1 V c).after 15 t) = _
  rw [after1_15]
  funext j
  refine (congrFun (out1_eq (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t)
    (iblk1 V c 13 t) (iblk1 V c 14 t)) j).trans ?_
  rw [whole1_4 V c t, whole1_5 V c t, whole1_6 V c t, whole1_7 V c t, whole1_8 V c t, whole1_9 V c t, whole1_10 V c t,
    whole1_11 V c t, whole1_12 V c t, whole1_13 V c t, whole1_14 V c t]
  exact score_block (iblk1 V c 1 t : S3200x64.Idx → EReal) (iblk1 V c 2 t : S3200x64.Idx → EReal)
    (iblk1 V c 0 t : S3200x64.Idx → EReal) (iblk1 V c 3 t : S3200x64.Idx → EReal)
    (V c main_v23 : S800000x64.Idx → EReal) (V c main_v30 : S800000x64.Idx → EReal)
    (V c main_arg2 : S800000x64.Idx → EReal) (V c main_v37 : S800000x64.Idx → EReal)
    _ _ _ _ _ _ _ _ _ _ _ j (((cfg1.win 15).blk t).view.emb j)
    (fun k => rows1_1 V c t j k) (fun k => rows1_2 V c t j k) (fun k => rows1_0 V c t j k) (fun k => rows1_3 V c t j k)

/-- An index of the score column is in point t's block iff each coordinate is in the block's range on its axis. -/
theorem mem_blk1 (t : Fin cfg1.N) (i : S800000x1.Idx) :
    i ∈ ((cfg1.win 15).blk t).view.set ↔ ∀ a : Fin 2, win1_15.index t a * S3200x1.size a ≤ (i a).val
      ∧ (i a).val < win1_15.index t a * S3200x1.size a + S3200x1.size a := by
  show i ∈ ((View.whole main_v46).slice (win1_15.rect t)).set ↔ _
  rw [View.set_slice_whole, Rect.mem_set_unit]
  exact Iff.rfl

/-- Edge r lies in the block of point r / 3200. -/
theorem cover1 (i : S800000x1.Idx) :
    ∃ t : Fin cfg1.N, (cfg1.win 15).flush t = true ∧ i ∈ ((cfg1.win 15).blk t).view.set := by
  have hN : grid1.N = 250 := N_1
  have hi0 : (i 0).val < 800000 := (i 0).isLt
  have hi1 : (i 1).val < 1 := (i 1).isLt
  have ht : (i 0).val / 3200 < grid1.N := by rw [hN]; omega
  obtain ⟨a0, b0, a1, b1, a2, b2, a3, b3, a4, b4, a5, b5, a6, b6, a7, b7, a8, b8, a9, b9, a10, b10, a11, b11, a12, b12, a13, b13, a14, b14, a15, b15⟩ := idx_facts1 ⟨(i 0).val / 3200, ht⟩
  refine ⟨⟨(i 0).val / 3200, ht⟩, flush1_15 _, ?_⟩
  rw [mem_blk1]
  intro a
  match a with
  | ⟨0, _⟩ =>
    show win1_15.index ⟨(i 0).val / 3200, ht⟩ (0 : Fin 2) * 3200 ≤ (i 0).val
      ∧ (i 0).val < win1_15.index ⟨(i 0).val / 3200, ht⟩ (0 : Fin 2) * 3200 + 3200
    rw [a15]; show (i 0).val / 3200 * 3200 ≤ (i 0).val ∧ (i 0).val < (i 0).val / 3200 * 3200 + 3200; omega
  | ⟨1, _⟩ =>
    show win1_15.index ⟨(i 0).val / 3200, ht⟩ (1 : Fin 2) * 1 ≤ (i 1).val
      ∧ (i 1).val < win1_15.index ⟨(i 0).val / 3200, ht⟩ (1 : Fin 2) * 1 + 1
    rw [b15]; omega

/-- The score column after the region: the score of the whole arrays as the region finds them. -/
theorem final1 (c : Dev nD) :
    (dat1 (F := Ideal) V c).arrAt 15 cfg1.N
      = score (V c main_v23 : S800000x64.Idx → EReal) (V c main_v30 : S800000x64.Idx → EReal)
        (V c main_arg2 : S800000x64.Idx → EReal) (V c main_v37 : S800000x64.Idx → EReal)
        (V c main_arg9 : S64x64.Idx → EReal) (rowVec (V c main_v42 : S1x64.Idx → EReal))
        (V c main_v38 : S64x64.Idx → EReal) (V c main_v39 : S64x64.Idx → EReal) (V c main_v40 : S64x64.Idx → EReal)
        (V c main_v41 : S64x64.Idx → EReal) (rowVec (V c main_v43 : S1x64.Idx → EReal))
        (V c main_arg13 : S64x128.Idx → EReal) (rowVec (V c main_v44 : S1x128.Idx → EReal))
        (V c main_arg15 : S128x1.Idx → EReal) (rowVec (V c main_v45 : S1x1.Idx → EReal)) :=
  (dat1 (F := Ideal) V c).arrAt_eq_of_cover 15 _ (fun t _ => flushed1_eq V c t) cover1

end Cert.KernelIdeal.Blocks

end
-- ==== Proof.CatFour.lean ====
/-
  A row of 256 entries laid out as four 64-wide pieces, against a 256 × 64 weight.

  Four M × 64 arrays set side by side read, in columns 64 n … 64 n + 63, the n-th array; rows 64 n … 64 n + 63 of
  the weight are its n-th 64 × 64 slice. So the linear layer of the joined array is the sum of the four pieces'
  products with the four slices, plus the bias: the hidden layer in its four-product form.
-/
import proofs.«174812_j45294725103970_1_alg».proof.Proof.EdgeHead

noncomputable section

open scoped BigOperators

namespace Cert.EdgeHead

open Idealize.ShloMosaic Idealize.ShloMosaic.ValueIdx Cert.Lib.BiasDot Cert.Lib.Dense Cert.Lib.RowLayers

variable {M : Nat}

/-- The joined array at column off + i, where off is the total width of the k pieces before piece k, reads piece k
    at column i. -/
theorem cat4_at (xs : List ((s : Shape) × (s.Idx → EReal)))
    (hcat : Shape.Concatenates (xs.map (·.1)) (⟨2, ![M, 256]⟩ : Shape) 1)
    (k : Nat) (hk : k < xs.length) (X : (⟨2, ![M, 64]⟩ : Shape).Idx → EReal) (hX : xs[k] = ⟨⟨2, ![M, 64]⟩, X⟩) (off : Nat)
    (hoff : (((xs.take k).map (·.1)).map fun s => if h : s.rank = (⟨2, ![M, 256]⟩ : Shape).rank
      then s.size ((1 : Fin (⟨2, ![M, 256]⟩ : Shape).rank).cast h.symm) else 0).sum = off)
    (p : Fin M) (i : Fin 64) (c : Fin 256) (hc : c.val = off + i.val) :
    concatenate (⟨2, ![M, 256]⟩ : Shape) 1 xs hcat (ix2 p c) = X (ix2 p i) :=
  concatenate_apply_piece (t := (⟨2, ![M, 256]⟩ : Shape)) 1 xs hcat (ix2 p c) k hk ⟨2, ![M, 64]⟩ X hX rfl off hoff (ix2 p i)
    (fun b hb => by
      match b, hb with
      | ⟨0, _⟩, _ => rfl
      | ⟨1, _⟩, h => exact absurd rfl h)
    (by show off + i.val = c.val; omega)

/-- Row off + i of the weight is row i of its slice starting at row off. -/
theorem slice_at (W : (⟨2, ![256, 64]⟩ : Shape).Idx → EReal) (off : Nat)
    (hs : (⟨2, ![256, 64]⟩ : Shape).Slices ![off, 0] ⟨2, ![64, 64]⟩) (i q : Fin 64) (c : Fin 256) (hc : c.val = off + i.val) :
    extractStridedSlice ⟨2, ![64, 64]⟩ ![off, 0] W hs (ix2 i q) = W (ix2 c q) :=
  extractStridedSlice_apply ![off, 0] W hs (ix2 i q) (ix2 c q) (fun a => by
    match a with
    | ⟨0, _⟩ => exact hc
    | ⟨1, _⟩ => show q.val = 0 + q.val; omega)

/-- The linear layer of four pieces set side by side is the four-product hidden layer against the weight's slices. -/
theorem lin_cat4 (A B C D : (⟨2, ![M, 64]⟩ : Shape).Idx → EReal) (W : (⟨2, ![256, 64]⟩ : Shape).Idx → EReal)
    (b : (⟨1, ![64]⟩ : Shape).Idx → EReal)
    (hcat : Shape.Concatenates [(⟨2, ![M, 64]⟩ : Shape), ⟨2, ![M, 64]⟩, ⟨2, ![M, 64]⟩, ⟨2, ![M, 64]⟩] ⟨2, ![M, 256]⟩ 1)
    (hs0 : (⟨2, ![256, 64]⟩ : Shape).Slices ![0, 0] ⟨2, ![64, 64]⟩)
    (hs1 : (⟨2, ![256, 64]⟩ : Shape).Slices ![64, 0] ⟨2, ![64, 64]⟩)
    (hs2 : (⟨2, ![256, 64]⟩ : Shape).Slices ![128, 0] ⟨2, ![64, 64]⟩)
    (hs3 : (⟨2, ![256, 64]⟩ : Shape).Slices ![192, 0] ⟨2, ![64, 64]⟩) :
    lin (concatenate ⟨2, ![M, 256]⟩ 1 [⟨⟨2, ![M, 64]⟩, A⟩, ⟨⟨2, ![M, 64]⟩, B⟩, ⟨⟨2, ![M, 64]⟩, C⟩, ⟨⟨2, ![M, 64]⟩, D⟩] hcat) W b
      = hid4 A B C D (extractStridedSlice ⟨2, ![64, 64]⟩ ![0, 0] W hs0) (extractStridedSlice ⟨2, ![64, 64]⟩ ![64, 0] W hs1)
          (extractStridedSlice ⟨2, ![64, 64]⟩ ![128, 0] W hs2) (extractStridedSlice ⟨2, ![64, 64]⟩ ![192, 0] W hs3) b := by
  funext j
  obtain ⟨p, q, rfl⟩ : ∃ (p : Fin M) (q : Fin 64), j = ix2 p q := ⟨j 0, j 1, eq_ix2 j⟩
  rw [lin_apply, sum_four]
  show _ = (((∑ i : Fin 64, A (ix2 p i) * extractStridedSlice ⟨2, ![64, 64]⟩ ![0, 0] W hs0 (ix2 i q))
        + ∑ i : Fin 64, B (ix2 p i) * extractStridedSlice ⟨2, ![64, 64]⟩ ![64, 0] W hs1 (ix2 i q))
        + ∑ i : Fin 64, C (ix2 p i) * extractStridedSlice ⟨2, ![64, 64]⟩ ![128, 0] W hs2 (ix2 i q))
        + (∑ i : Fin 64, D (ix2 p i) * extractStridedSlice ⟨2, ![64, 64]⟩ ![192, 0] W hs3 (ix2 i q)) + b (ix1 q)
  refine congrArg (· + b (ix1 q)) ?_
  refine congrArg₂ (· + ·) (congrArg₂ (· + ·) (congrArg₂ (· + ·) ?_ ?_) ?_) ?_
  · exact Finset.sum_congr rfl fun i _ => by
      rw [cat4_at [⟨⟨2, ![M, 64]⟩, A⟩, ⟨⟨2, ![M, 64]⟩, B⟩, ⟨⟨2, ![M, 64]⟩, C⟩, ⟨⟨2, ![M, 64]⟩, D⟩] hcat 0 (by show (0 : ℕ) < 4; omega) A rfl 0 rfl p i ⟨i.val, by omega⟩ (by show i.val = 0 + i.val; omega),
        slice_at W 0 hs0 i q ⟨i.val, by omega⟩ (by show i.val = 0 + i.val; omega)]
  · exact Finset.sum_congr rfl fun i _ => by
      rw [cat4_at [⟨⟨2, ![M, 64]⟩, A⟩, ⟨⟨2, ![M, 64]⟩, B⟩, ⟨⟨2, ![M, 64]⟩, C⟩, ⟨⟨2, ![M, 64]⟩, D⟩] hcat 1 (by show (1 : ℕ) < 4; omega) B rfl 64 rfl p i ⟨64 + i.val, by omega⟩ rfl,
        slice_at W 64 hs1 i q ⟨64 + i.val, by omega⟩ rfl]
  · exact Finset.sum_congr rfl fun i _ => by
      rw [cat4_at [⟨⟨2, ![M, 64]⟩, A⟩, ⟨⟨2, ![M, 64]⟩, B⟩, ⟨⟨2, ![M, 64]⟩, C⟩, ⟨⟨2, ![M, 64]⟩, D⟩] hcat 2 (by show (2 : ℕ) < 4; omega) C rfl 128 rfl p i ⟨128 + i.val, by omega⟩ rfl,
        slice_at W 128 hs2 i q ⟨128 + i.val, by omega⟩ rfl]
  · exact Finset.sum_congr rfl fun i _ => by
      rw [cat4_at [⟨⟨2, ![M, 64]⟩, A⟩, ⟨⟨2, ![M, 64]⟩, B⟩, ⟨⟨2, ![M, 64]⟩, C⟩, ⟨⟨2, ![M, 64]⟩, D⟩] hcat 3 (by show (3 : ℕ) < 4; omega) D rfl 192 rfl p i ⟨192 + i.val, by omega⟩ rfl,
        slice_at W 192 hs3 i q ⟨192 + i.val, by omega⟩ rfl]

end Cert.EdgeHead

end
-- ==== Proof.RefValue.lean ====
/-
  The reference's result as the score column of its own gathered arrays.

  The reference joins the gathered query rows, the gathered head rows, the relation rows e · Wr + br and the gathered
  tail rows into one 256-wide array, applies three dense layers with a positive part after the first two, drops the
  unit axis and applies 1 / (1 + exp (-x)). The joined layer is the four-product hidden layer (lin_cat4), the expansion
  of the logistic function is the logistic function, and so entry e of the result is the score of row e.
-/
import proofs.«174812_j45294725103970_1_alg».proof.Proof.Gen.ReferenceIdeal.Read
import Idealize.ShloMosaic.Lib.IdealHost
import proofs.«174812_j45294725103970_1_alg».proof.Proof.CatFour

noncomputable section

open scoped BigOperators

namespace Cert.ReferenceIdeal.RefValue

open Idealize.ShloMosaic Idealize.ShloMosaic.ValueIdx
open Cert.ReferenceIdeal Cert.ReferenceIdeal.Gen Cert.ReferenceIdeal.Read
open Cert.Lib.BiasDot Cert.Lib.Dense Cert.Lib.RowLayers Cert.Lib.CatDot Cert.EdgeHead

/-- The first layer after its positive part: the four-product hidden layer of the gathered arrays. -/
theorem v49_eq (x0 : (⟨S64x64, .f32⟩ : BufTy).Contents (Elt Ideal)) (x1 : (⟨S50000x64, .f32⟩ : BufTy).Contents (Elt Ideal))
    (x2 : (⟨S800000x64, .f32⟩ : BufTy).Contents (Elt Ideal)) (x3 : (⟨S2x800000, .i32⟩ : BufTy).Contents (Elt Ideal))
    (x4 : (⟨S50000, .i32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal)) (x11 : (⟨S256x64, .f32⟩ : BufTy).Contents (Elt Ideal))
    (x12 : (⟨S64, .f32⟩ : BufTy).Contents (Elt Ideal)) (x13 : (⟨S64x128, .f32⟩ : BufTy).Contents (Elt Ideal))
    (x14 : (⟨S128, .f32⟩ : BufTy).Contents (Elt Ideal)) (x15 : (⟨S128x1, .f32⟩ : BufTy).Contents (Elt Ideal))
    (x16 : (⟨S1, .f32⟩ : BufTy).Contents (Elt Ideal))
    (hs0 : S256x64.Slices ![0, 0] S64x64) (hs1 : S256x64.Slices ![64, 0] S64x64)
    (hs2 : S256x64.Slices ![128, 0] S64x64) (hs3 : S256x64.Slices ![192, 0] S64x64) :
    val_main_v49 (F := Ideal) x0 x1 x2 x3 x4 x5 x6 x7 x8 x9 x10 x11 x12 = relu (hid4 (val_main_v29 (F := Ideal) x0 x3 x4 x5 x6) (val_main_v36 (F := Ideal) x1 x3 x7 x8) (lin x2 x9 x10)
        (val_main_v43 (F := Ideal) x1 x3 x7 x8) (extractStridedSlice S64x64 ![0, 0] x11 hs0) (extractStridedSlice S64x64 ![64, 0] x11 hs1)
        (extractStridedSlice S64x64 ![128, 0] x11 hs2) (extractStridedSlice S64x64 ![192, 0] x11 hs3) x12) := by
  have e22 : val_main_v22 (F := Ideal) x2 x9 x10 = lin x2 x9 x10 :=
    host_lin dot_S800000x64_S64x64_S800000x64_1_0_0_1_n_n rfl x2 x9 x10 bcast_S64_S1x64_1 bcast_S1x64_S800000x64_0_1
  refine (host_lin_relu dot_S800000x256_S256x64_S800000x64_1_0_0_1_n_n rfl (val_main_v44 (F := Ideal) x0 x1 x2 x3 x4 x5 x6 x7 x8 x9 x10) x11 x12
    bcast_S64_S1x64_1 bcast_S1x64_S800000x64_0_1 _ bcast_S_S800000x64).trans ?_
  refine congrArg relu ?_
  unfold val_main_v44
  rw [e22]
  exact lin_cat4 _ _ _ _ x11 x12 _ hs0 hs1 hs2 hs3

/-- The logits column. -/
theorem v58_eq (x0 : (⟨S64x64, .f32⟩ : BufTy).Contents (Elt Ideal)) (x1 : (⟨S50000x64, .f32⟩ : BufTy).Contents (Elt Ideal))
    (x2 : (⟨S800000x64, .f32⟩ : BufTy).Contents (Elt Ideal)) (x3 : (⟨S2x800000, .i32⟩ : BufTy).Contents (Elt Ideal))
    (x4 : (⟨S50000, .i32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal)) (x11 : (⟨S256x64, .f32⟩ : BufTy).Contents (Elt Ideal))
    (x12 : (⟨S64, .f32⟩ : BufTy).Contents (Elt Ideal)) (x13 : (⟨S64x128, .f32⟩ : BufTy).Contents (Elt Ideal))
    (x14 : (⟨S128, .f32⟩ : BufTy).Contents (Elt Ideal)) (x15 : (⟨S128x1, .f32⟩ : BufTy).Contents (Elt Ideal))
    (x16 : (⟨S1, .f32⟩ : BufTy).Contents (Elt Ideal))
    (hs0 : S256x64.Slices ![0, 0] S64x64) (hs1 : S256x64.Slices ![64, 0] S64x64)
    (hs2 : S256x64.Slices ![128, 0] S64x64) (hs3 : S256x64.Slices ![192, 0] S64x64) :
    val_main_v58 (F := Ideal) x0 x1 x2 x3 x4 x5 x6 x7 x8 x9 x10 x11 x12 x13 x14 x15 x16
      = lin (relu (lin (relu (hid4 (val_main_v29 (F := Ideal) x0 x3 x4 x5 x6) (val_main_v36 (F := Ideal) x1 x3 x7 x8) (lin x2 x9 x10)
        (val_main_v43 (F := Ideal) x1 x3 x7 x8) (extractStridedSlice S64x64 ![0, 0] x11 hs0) (extractStridedSlice S64x64 ![64, 0] x11 hs1)
        (extractStridedSlice S64x64 ![128, 0] x11 hs2) (extractStridedSlice S64x64 ![192, 0] x11 hs3) x12)) x13 x14)) x15 x16 := by
  have e54 : val_main_v54 (F := Ideal) x0 x1 x2 x3 x4 x5 x6 x7 x8 x9 x10 x11 x12 x13 x14 = relu (lin (relu (hid4 (val_main_v29 (F := Ideal) x0 x3 x4 x5 x6) (val_main_v36 (F := Ideal) x1 x3 x7 x8) (lin x2 x9 x10)
        (val_main_v43 (F := Ideal) x1 x3 x7 x8) (extractStridedSlice S64x64 ![0, 0] x11 hs0) (extractStridedSlice S64x64 ![64, 0] x11 hs1)
        (extractStridedSlice S64x64 ![128, 0] x11 hs2) (extractStridedSlice S64x64 ![192, 0] x11 hs3) x12)) x13 x14) := by
    refine (host_lin_relu dot_S800000x64_S64x128_S800000x128_1_0_0_1_n_n rfl (val_main_v49 (F := Ideal) x0 x1 x2 x3 x4 x5 x6 x7 x8 x9 x10 x11 x12) x13 x14
      bcast_S128_S1x128_1 bcast_S1x128_S800000x128_0_1 _ bcast_S_S800000x128).trans ?_
    rw [v49_eq x0 x1 x2 x3 x4 x5 x6 x7 x8 x9 x10 x11 x12 x13 x14 x15 x16 hs0 hs1 hs2 hs3]
  refine (host_lin dot_S800000x128_S128x1_S800000x1_1_0_0_1_n_n rfl (val_main_v54 (F := Ideal) x0 x1 x2 x3 x4 x5 x6 x7 x8 x9 x10 x11 x12 x13 x14) x15 x16
    bcast_S1_S1x1_1 bcast_S1x1_S800000x1_0_1).trans ?_
  rw [e54]

/-- Entry e of the reference's result is the score of row e of its gathered arrays. -/
theorem ref_eq (x0 : (⟨S64x64, .f32⟩ : BufTy).Contents (Elt Ideal)) (x1 : (⟨S50000x64, .f32⟩ : BufTy).Contents (Elt Ideal))
    (x2 : (⟨S800000x64, .f32⟩ : BufTy).Contents (Elt Ideal)) (x3 : (⟨S2x800000, .i32⟩ : BufTy).Contents (Elt Ideal))
    (x4 : (⟨S50000, .i32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal)) (x11 : (⟨S256x64, .f32⟩ : BufTy).Contents (Elt Ideal))
    (x12 : (⟨S64, .f32⟩ : BufTy).Contents (Elt Ideal)) (x13 : (⟨S64x128, .f32⟩ : BufTy).Contents (Elt Ideal))
    (x14 : (⟨S128, .f32⟩ : BufTy).Contents (Elt Ideal)) (x15 : (⟨S128x1, .f32⟩ : BufTy).Contents (Elt Ideal))
    (x16 : (⟨S1, .f32⟩ : BufTy).Contents (Elt Ideal))
    (hs0 : S256x64.Slices ![0, 0] S64x64) (hs1 : S256x64.Slices ![64, 0] S64x64)
    (hs2 : S256x64.Slices ![128, 0] S64x64) (hs3 : S256x64.Slices ![192, 0] S64x64) (e : S800000.Idx) :
    val_main_v65 (F := Ideal) x0 x1 x2 x3 x4 x5 x6 x7 x8 x9 x10 x11 x12 x13 x14 x15 x16 e
      = score (val_main_v29 (F := Ideal) x0 x3 x4 x5 x6) (val_main_v36 (F := Ideal) x1 x3 x7 x8) x2
          (val_main_v43 (F := Ideal) x1 x3 x7 x8) x9 x10 (extractStridedSlice S64x64 ![0, 0] x11 hs0)
          (extractStridedSlice S64x64 ![64, 0] x11 hs1) (extractStridedSlice S64x64 ![128, 0] x11 hs2)
          (extractStridedSlice S64x64 ![192, 0] x11 hs3) x12 x13 x14 x15 x16 (ix2 (e 0) (0 : Fin 1)) := by
  have h59 : val_main_v59 (F := Ideal) x0 x1 x2 x3 x4 x5 x6 x7 x8 x9 x10 x11 x12 x13 x14 x15 x16 e = val_main_v58 (F := Ideal) x0 x1 x2 x3 x4 x5 x6 x7 x8 x9 x10 x11 x12 x13 x14 x15 x16 (ix2 (e 0) (0 : Fin 1)) := by
    rw [val_main_v59_apply]
    refine congrArg _ ?_
    funext a
    apply Fin.ext
    match a with
    | ⟨0, _⟩ => show (e 0).val / 1 = (e 0).val; omega
    | ⟨1, _⟩ => rfl
  have h1 : val_main_v64 (F := Ideal) e = 1 := by
    unfold val_main_v64 val_main_cst_7
    rw [broadcastInDim_scalar_apply, constant_apply, Ideal.ofBits_one_f32]
  have h1' : val_main_v62 (F := Ideal) e = 1 := by
    unfold val_main_v62 val_main_cst
    rw [broadcastInDim_scalar_apply, constant_apply, Ideal.ofBits_one_f32]
  have hdef : val_main_v65 (F := Ideal) x0 x1 x2 x3 x4 x5 x6 x7 x8 x9 x10 x11 x12 x13 x14 x15 x16 e
      = FloatOps.hostDivf (F := Ideal) (φ := .f32) (val_main_v64 (F := Ideal) e)
          (FloatOps.addf (F := Ideal) (φ := .f32) (val_main_v62 (F := Ideal) e)
            (FloatOps.hostUnary (F := Ideal) (φ := .f32) .exp
              (FloatOps.hostNegf (F := Ideal) (φ := .f32) (val_main_v59 (F := Ideal) x0 x1 x2 x3 x4 x5 x6 x7 x8 x9 x10 x11 x12 x13 x14 x15 x16 e)))) := rfl
  rw [hdef, h1, h1', h59, v58_eq x0 x1 x2 x3 x4 x5 x6 x7 x8 x9 x10 x11 x12 x13 x14 x15 x16 hs0 hs1 hs2 hs3]
  rfl

/-- The projected node rows as a linear layer of the whole node array. -/
theorem v18_eq (x1 : (⟨S50000x64, .f32⟩ : BufTy).Contents (Elt Ideal)) (x7 : (⟨S64x64, .f32⟩ : BufTy).Contents (Elt Ideal))
    (x8 : (⟨S64, .f32⟩ : BufTy).Contents (Elt Ideal)) : val_main_v18 (F := Ideal) x1 x7 x8 = lin x1 x7 x8 :=
  host_lin dot_S50000x64_S64x64_S50000x64_1_0_0_1_n_n rfl x1 x7 x8 bcast_S64_S1x64_1 bcast_S1x64_S50000x64_0_1

/-- The gathered head rows are rows of that linear layer. -/
theorem v36_eq (x1 : (⟨S50000x64, .f32⟩ : BufTy).Contents (Elt Ideal)) (x3 : (⟨S2x800000, .i32⟩ : BufTy).Contents (Elt Ideal))
    (x7 : (⟨S64x64, .f32⟩ : BufTy).Contents (Elt Ideal)) (x8 : (⟨S64, .f32⟩ : BufTy).Contents (Elt Ideal)) :
    val_main_v36 (F := Ideal) x1 x3 x7 x8
      = Host.gather gather_S50000x64_S800000x1_S800000x64_1_0_n_n_0_1_164 (lin x1 x7 x8) (val_main_v35 (F := Ideal) x3) := by
  unfold val_main_v36
  rw [v18_eq]

/-- So are the gathered tail rows. -/
theorem v43_eq (x1 : (⟨S50000x64, .f32⟩ : BufTy).Contents (Elt Ideal)) (x3 : (⟨S2x800000, .i32⟩ : BufTy).Contents (Elt Ideal))
    (x7 : (⟨S64x64, .f32⟩ : BufTy).Contents (Elt Ideal)) (x8 : (⟨S64, .f32⟩ : BufTy).Contents (Elt Ideal)) :
    val_main_v43 (F := Ideal) x1 x3 x7 x8
      = Host.gather gather_S50000x64_S800000x1_S800000x64_1_0_n_n_0_1_164 (lin x1 x7 x8) (val_main_v42 (F := Ideal) x3) := by
  unfold val_main_v43
  rw [v18_eq]

end Cert.ReferenceIdeal.RefValue

end
-- ==== Proof.KernelValue.lean ====
/-
  The idealized kernel program's result buffer, read through the fold of its host stretches and its two regions.

  Before the first region the host forms the query projection q · Wq + bq and the bias row of the node projection;
  the first region leaves the node projection n · We + be; the host then builds the two index columns, gathers the
  query rows and the head and tail rows of the node projection, and slices the 256 × 64 weight into its four 64 × 64
  blocks; the second region leaves the score column; a last reshape drops its unit axis. The host operations on the
  index columns and the gathers are the reference's own, applied to the same arrays, so each gathered array is the
  reference's gathered array, and entry e of the result is the score of row e of those arrays: the reference's entry.
-/
import proofs.«174812_j45294725103970_1_alg».proof.Proof.Blocks
import proofs.«174812_j45294725103970_1_alg».proof.Proof.RefValue
import Idealize.ShloMosaic.Lib.StableHlo.Run

set_option maxRecDepth 16384

noncomputable section

open scoped BigOperators

namespace Cert.KernelIdeal.KernelValue

open Idealize.ShloMosaic Idealize.ShloMosaic.ValueIdx Idealize.ShloMosaic.TcCoe Idealize.SL.Sem Idealize.ShloMosaic.StableHlo
open Cert.KernelIdeal Cert.KernelIdeal.Gen Cert.KernelIdeal.Blocks
open Cert.Lib.BiasDot Cert.Lib.Dense Cert.Lib.RowLayers Cert.EdgeHead

variable (m : (ℓ : Loc nD τ sig) → Buf (Elt Ideal) ℓ) (ρ : Dev nD → PrngReg)

/-! ## The argument arrays at each boundary: nothing writes them -/

theorem W1_arg0 (c : Dev nD) : W1 (F := Ideal) m ρ c (Proc.devRef .tc main_arg0) = m ((c : Thread nD τ).loc main_arg0) := by
  show StableHlo.after hostOps0 (W0 m ρ c) (Proc.devRef .tc main_arg0) = _
  after_results_simp <;> rfl
theorem W2_arg0 (c : Dev nD) : W2 (F := Ideal) m ρ c (Proc.devRef .tc main_arg0) = m ((c : Thread nD τ).loc main_arg0) :=
  (W2_of_ne m ρ c main_arg0 (by decide)).trans (W1_arg0 m ρ c)
theorem W1_arg1 (c : Dev nD) : W1 (F := Ideal) m ρ c (Proc.devRef .tc main_arg1) = m ((c : Thread nD τ).loc main_arg1) := by
  show StableHlo.after hostOps0 (W0 m ρ c) (Proc.devRef .tc main_arg1) = _
  after_results_simp <;> rfl
theorem W1_arg5 (c : Dev nD) : W1 (F := Ideal) m ρ c (Proc.devRef .tc main_arg5) = m ((c : Thread nD τ).loc main_arg5) := by
  show StableHlo.after hostOps0 (W0 m ρ c) (Proc.devRef .tc main_arg5) = _
  after_results_simp <;> rfl
theorem W2_arg5 (c : Dev nD) : W2 (F := Ideal) m ρ c (Proc.devRef .tc main_arg5) = m ((c : Thread nD τ).loc main_arg5) :=
  (W2_of_ne m ρ c main_arg5 (by decide)).trans (W1_arg5 m ρ c)
theorem W1_arg6 (c : Dev nD) : W1 (F := Ideal) m ρ c (Proc.devRef .tc main_arg6) = m ((c : Thread nD τ).loc main_arg6) := by
  show StableHlo.after hostOps0 (W0 m ρ c) (Proc.devRef .tc main_arg6) = _
  after_results_simp <;> rfl
theorem W2_arg6 (c : Dev nD) : W2 (F := Ideal) m ρ c (Proc.devRef .tc main_arg6) = m ((c : Thread nD τ).loc main_arg6) :=
  (W2_of_ne m ρ c main_arg6 (by decide)).trans (W1_arg6 m ρ c)
theorem W1_arg7 (c : Dev nD) : W1 (F := Ideal) m ρ c (Proc.devRef .tc main_arg7) = m ((c : Thread nD τ).loc main_arg7) := by
  show StableHlo.after hostOps0 (W0 m ρ c) (Proc.devRef .tc main_arg7) = _
  after_results_simp <;> rfl
theorem W1_arg8 (c : Dev nD) : W1 (F := Ideal) m ρ c (Proc.devRef .tc main_arg8) = m ((c : Thread nD τ).loc main_arg8) := by
  show StableHlo.after hostOps0 (W0 m ρ c) (Proc.devRef .tc main_arg8) = _
  after_results_simp <;> rfl
theorem W2_arg8 (c : Dev nD) : W2 (F := Ideal) m ρ c (Proc.devRef .tc main_arg8) = m ((c : Thread nD τ).loc main_arg8) :=
  (W2_of_ne m ρ c main_arg8 (by decide)).trans (W1_arg8 m ρ c)
theorem W1_arg2 (c : Dev nD) : W1 (F := Ideal) m ρ c (Proc.devRef .tc main_arg2) = m ((c : Thread nD τ).loc main_arg2) := by
  show StableHlo.after hostOps0 (W0 m ρ c) (Proc.devRef .tc main_arg2) = _
  after_results_simp <;> rfl
theorem W2_arg2 (c : Dev nD) : W2 (F := Ideal) m ρ c (Proc.devRef .tc main_arg2) = m ((c : Thread nD τ).loc main_arg2) :=
  (W2_of_ne m ρ c main_arg2 (by decide)).trans (W1_arg2 m ρ c)
theorem W1_arg3 (c : Dev nD) : W1 (F := Ideal) m ρ c (Proc.devRef .tc main_arg3) = m ((c : Thread nD τ).loc main_arg3) := by
  show StableHlo.after hostOps0 (W0 m ρ c) (Proc.devRef .tc main_arg3) = _
  after_results_simp <;> rfl
theorem W2_arg3 (c : Dev nD) : W2 (F := Ideal) m ρ c (Proc.devRef .tc main_arg3) = m ((c : Thread nD τ).loc main_arg3) :=
  (W2_of_ne m ρ c main_arg3 (by decide)).trans (W1_arg3 m ρ c)
theorem W1_arg4 (c : Dev nD) : W1 (F := Ideal) m ρ c (Proc.devRef .tc main_arg4) = m ((c : Thread nD τ).loc main_arg4) := by
  show StableHlo.after hostOps0 (W0 m ρ c) (Proc.devRef .tc main_arg4) = _
  after_results_simp <;> rfl
theorem W2_arg4 (c : Dev nD) : W2 (F := Ideal) m ρ c (Proc.devRef .tc main_arg4) = m ((c : Thread nD τ).loc main_arg4) :=
  (W2_of_ne m ρ c main_arg4 (by decide)).trans (W1_arg4 m ρ c)
theorem W1_arg9 (c : Dev nD) : W1 (F := Ideal) m ρ c (Proc.devRef .tc main_arg9) = m ((c : Thread nD τ).loc main_arg9) := by
  show StableHlo.after hostOps0 (W0 m ρ c) (Proc.devRef .tc main_arg9) = _
  after_results_simp <;> rfl
theorem W2_arg9 (c : Dev nD) : W2 (F := Ideal) m ρ c (Proc.devRef .tc main_arg9) = m ((c : Thread nD τ).loc main_arg9) :=
  (W2_of_ne m ρ c main_arg9 (by decide)).trans (W1_arg9 m ρ c)
theorem W1_arg10 (c : Dev nD) : W1 (F := Ideal) m ρ c (Proc.devRef .tc main_arg10) = m ((c : Thread nD τ).loc main_arg10) := by
  show StableHlo.after hostOps0 (W0 m ρ c) (Proc.devRef .tc main_arg10) = _
  after_results_simp <;> rfl
theorem W2_arg10 (c : Dev nD) : W2 (F := Ideal) m ρ c (Proc.devRef .tc main_arg10) = m ((c : Thread nD τ).loc main_arg10) :=
  (W2_of_ne m ρ c main_arg10 (by decide)).trans (W1_arg10 m ρ c)
theorem W1_arg11 (c : Dev nD) : W1 (F := Ideal) m ρ c (Proc.devRef .tc main_arg11) = m ((c : Thread nD τ).loc main_arg11) := by
  show StableHlo.after hostOps0 (W0 m ρ c) (Proc.devRef .tc main_arg11) = _
  after_results_simp <;> rfl
theorem W2_arg11 (c : Dev nD) : W2 (F := Ideal) m ρ c (Proc.devRef .tc main_arg11) = m ((c : Thread nD τ).loc main_arg11) :=
  (W2_of_ne m ρ c main_arg11 (by decide)).trans (W1_arg11 m ρ c)
theorem W1_arg12 (c : Dev nD) : W1 (F := Ideal) m ρ c (Proc.devRef .tc main_arg12) = m ((c : Thread nD τ).loc main_arg12) := by
  show StableHlo.after hostOps0 (W0 m ρ c) (Proc.devRef .tc main_arg12) = _
  after_results_simp <;> rfl
theorem W2_arg12 (c : Dev nD) : W2 (F := Ideal) m ρ c (Proc.devRef .tc main_arg12) = m ((c : Thread nD τ).loc main_arg12) :=
  (W2_of_ne m ρ c main_arg12 (by decide)).trans (W1_arg12 m ρ c)
theorem W1_arg13 (c : Dev nD) : W1 (F := Ideal) m ρ c (Proc.devRef .tc main_arg13) = m ((c : Thread nD τ).loc main_arg13) := by
  show StableHlo.after hostOps0 (W0 m ρ c) (Proc.devRef .tc main_arg13) = _
  after_results_simp <;> rfl
theorem W2_arg13 (c : Dev nD) : W2 (F := Ideal) m ρ c (Proc.devRef .tc main_arg13) = m ((c : Thread nD τ).loc main_arg13) :=
  (W2_of_ne m ρ c main_arg13 (by decide)).trans (W1_arg13 m ρ c)
theorem W1_arg14 (c : Dev nD) : W1 (F := Ideal) m ρ c (Proc.devRef .tc main_arg14) = m ((c : Thread nD τ).loc main_arg14) := by
  show StableHlo.after hostOps0 (W0 m ρ c) (Proc.devRef .tc main_arg14) = _
  after_results_simp <;> rfl
theorem W2_arg14 (c : Dev nD) : W2 (F := Ideal) m ρ c (Proc.devRef .tc main_arg14) = m ((c : Thread nD τ).loc main_arg14) :=
  (W2_of_ne m ρ c main_arg14 (by decide)).trans (W1_arg14 m ρ c)
theorem W1_arg15 (c : Dev nD) : W1 (F := Ideal) m ρ c (Proc.devRef .tc main_arg15) = m ((c : Thread nD τ).loc main_arg15) := by
  show StableHlo.after hostOps0 (W0 m ρ c) (Proc.devRef .tc main_arg15) = _
  after_results_simp <;> rfl
theorem W2_arg15 (c : Dev nD) : W2 (F := Ideal) m ρ c (Proc.devRef .tc main_arg15) = m ((c : Thread nD τ).loc main_arg15) :=
  (W2_of_ne m ρ c main_arg15 (by decide)).trans (W1_arg15 m ρ c)
theorem W1_arg16 (c : Dev nD) : W1 (F := Ideal) m ρ c (Proc.devRef .tc main_arg16) = m ((c : Thread nD τ).loc main_arg16) := by
  show StableHlo.after hostOps0 (W0 m ρ c) (Proc.devRef .tc main_arg16) = _
  after_results_simp <;> rfl
theorem W2_arg16 (c : Dev nD) : W2 (F := Ideal) m ρ c (Proc.devRef .tc main_arg16) = m ((c : Thread nD τ).loc main_arg16) :=
  (W2_of_ne m ρ c main_arg16 (by decide)).trans (W1_arg16 m ρ c)

theorem W3_arg2 (c : Dev nD) : W3 (F := Ideal) m ρ c (Proc.devRef .tc main_arg2) = m ((c : Thread nD τ).loc main_arg2) := by
  show StableHlo.after hostOps1 (W2 m ρ c) (Proc.devRef .tc main_arg2) = _
  after_results_simp
  exact W2_arg2 m ρ c
theorem W3_arg3 (c : Dev nD) : W3 (F := Ideal) m ρ c (Proc.devRef .tc main_arg3) = m ((c : Thread nD τ).loc main_arg3) := by
  show StableHlo.after hostOps1 (W2 m ρ c) (Proc.devRef .tc main_arg3) = _
  after_results_simp
  exact W2_arg3 m ρ c
theorem W3_arg4 (c : Dev nD) : W3 (F := Ideal) m ρ c (Proc.devRef .tc main_arg4) = m ((c : Thread nD τ).loc main_arg4) := by
  show StableHlo.after hostOps1 (W2 m ρ c) (Proc.devRef .tc main_arg4) = _
  after_results_simp
  exact W2_arg4 m ρ c
theorem W3_arg9 (c : Dev nD) : W3 (F := Ideal) m ρ c (Proc.devRef .tc main_arg9) = m ((c : Thread nD τ).loc main_arg9) := by
  show StableHlo.after hostOps1 (W2 m ρ c) (Proc.devRef .tc main_arg9) = _
  after_results_simp
  exact W2_arg9 m ρ c
theorem W3_arg10 (c : Dev nD) : W3 (F := Ideal) m ρ c (Proc.devRef .tc main_arg10) = m ((c : Thread nD τ).loc main_arg10) := by
  show StableHlo.after hostOps1 (W2 m ρ c) (Proc.devRef .tc main_arg10) = _
  after_results_simp
  exact W2_arg10 m ρ c
theorem W3_arg11 (c : Dev nD) : W3 (F := Ideal) m ρ c (Proc.devRef .tc main_arg11) = m ((c : Thread nD τ).loc main_arg11) := by
  show StableHlo.after hostOps1 (W2 m ρ c) (Proc.devRef .tc main_arg11) = _
  after_results_simp
  exact W2_arg11 m ρ c
theorem W3_arg12 (c : Dev nD) : W3 (F := Ideal) m ρ c (Proc.devRef .tc main_arg12) = m ((c : Thread nD τ).loc main_arg12) := by
  show StableHlo.after hostOps1 (W2 m ρ c) (Proc.devRef .tc main_arg12) = _
  after_results_simp
  exact W2_arg12 m ρ c
theorem W3_arg13 (c : Dev nD) : W3 (F := Ideal) m ρ c (Proc.devRef .tc main_arg13) = m ((c : Thread nD τ).loc main_arg13) := by
  show StableHlo.after hostOps1 (W2 m ρ c) (Proc.devRef .tc main_arg13) = _
  after_results_simp
  exact W2_arg13 m ρ c
theorem W3_arg14 (c : Dev nD) : W3 (F := Ideal) m ρ c (Proc.devRef .tc main_arg14) = m ((c : Thread nD τ).loc main_arg14) := by
  show StableHlo.after hostOps1 (W2 m ρ c) (Proc.devRef .tc main_arg14) = _
  after_results_simp
  exact W2_arg14 m ρ c
theorem W3_arg15 (c : Dev nD) : W3 (F := Ideal) m ρ c (Proc.devRef .tc main_arg15) = m ((c : Thread nD τ).loc main_arg15) := by
  show StableHlo.after hostOps1 (W2 m ρ c) (Proc.devRef .tc main_arg15) = _
  after_results_simp
  exact W2_arg15 m ρ c
theorem W3_arg16 (c : Dev nD) : W3 (F := Ideal) m ρ c (Proc.devRef .tc main_arg16) = m ((c : Thread nD τ).loc main_arg16) := by
  show StableHlo.after hostOps1 (W2 m ρ c) (Proc.devRef .tc main_arg16) = _
  after_results_simp
  exact W2_arg16 m ρ c

/-! ## What the host and the first region leave -/

/-- The bias row of the node projection: the bias vector as a 1 × 64 row. -/
theorem V1_v4 (c : Dev nD) : rowVec (V1 (F := Ideal) m ρ c main_v4 : S1x64.Idx → EReal) = (m ((c : Thread nD τ).loc main_arg8)) := by
  have e : (V1 (F := Ideal) m ρ c main_v4 : S1x64.Idx → EReal)
      = shapeCast S1x64 ((m ((c : Thread nD τ).loc main_arg8)) : S64.Idx → EReal) shapeCasts_S64_S1x64 := by
    show StableHlo.after hostOps0 (W0 m ρ c) (Proc.devRef .tc main_v4) = _
    after_results_simp
    rfl
  rw [e]
  exact rowVec_reshape _ _

/-- The node projection after the first region: the linear layer of the node array. -/
theorem W2_v5 (c : Dev nD) : (W2 (F := Ideal) m ρ c (Proc.devRef .tc main_v5) : S50000x64.Idx → EReal)
    = lin ((m ((c : Thread nD τ).loc main_arg1)) : S50000x64.Idx → EReal) ((m ((c : Thread nD τ).loc main_arg7)) : S64x64.Idx → EReal) ((m ((c : Thread nD τ).loc main_arg8)) : S64.Idx → EReal) := by
  refine (W2_arr m ρ c 3).trans ((final0 (V1 m ρ) c).trans ?_)
  rw [V1_v4 m ρ c]
  rw [show (V1 (F := Ideal) m ρ c main_arg1 : S50000x64.Idx → EReal) = (m ((c : Thread nD τ).loc main_arg1)) from W1_arg1 m ρ c,
    show (V1 (F := Ideal) m ρ c main_arg7 : S64x64.Idx → EReal) = (m ((c : Thread nD τ).loc main_arg7)) from W1_arg7 m ρ c]

/-- The query projection, as the host leaves it. -/
theorem W2_v3 (c : Dev nD) : (W2 (F := Ideal) m ρ c (Proc.devRef .tc main_v3) : S64x64.Idx → EReal)
    = Cert.ReferenceIdeal.Read.val_main_v14 (F := Ideal) (m ((c : Thread nD τ).loc main_arg0)) (m ((c : Thread nD τ).loc main_arg5)) (m ((c : Thread nD τ).loc main_arg6)) := by
  refine (W2_of_ne m ρ c main_v3 (by decide)).trans ?_
  show StableHlo.after hostOps0 (W0 m ρ c) (Proc.devRef .tc main_v3) = _
  after_results_simp
  rfl

/-! ## What the second region is entered with -/

/-- The gathered query rows are the reference's. -/
theorem V3_v23 (c : Dev nD) : (V3 (F := Ideal) m ρ c main_v23 : S800000x64.Idx → EReal)
    = Cert.ReferenceIdeal.Read.val_main_v29 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v23) = _
  after_results_simp
  rw [W2_v3 m ρ c, W2_arg3 m ρ c, W2_arg4 m ρ c]
  rfl

/-- The gathered head rows are the reference's. -/
theorem V3_v30 (c : Dev nD) : (V3 (F := Ideal) m ρ c main_v30 : S800000x64.Idx → EReal)
    = Cert.ReferenceIdeal.Read.val_main_v36 (F := Ideal) (m ((c : Thread nD τ).loc main_arg1)) (m ((c : Thread nD τ).loc main_arg3)) (m ((c : Thread nD τ).loc main_arg7)) (m ((c : Thread nD τ).loc main_arg8)) := by
  rw [Cert.ReferenceIdeal.RefValue.v36_eq]
  show StableHlo.after hostOps1 (W2 m ρ c) (Proc.devRef .tc main_v30) = _
  after_results_simp
  rw [W2_v5 m ρ c, W2_arg3 m ρ c]
  rfl

/-- The gathered tail rows are the reference's. -/
theorem V3_v37 (c : Dev nD) : (V3 (F := Ideal) m ρ c main_v37 : S800000x64.Idx → EReal)
    = Cert.ReferenceIdeal.Read.val_main_v43 (F := Ideal) (m ((c : Thread nD τ).loc main_arg1)) (m ((c : Thread nD τ).loc main_arg3)) (m ((c : Thread nD τ).loc main_arg7)) (m ((c : Thread nD τ).loc main_arg8)) := by
  rw [Cert.ReferenceIdeal.RefValue.v43_eq]
  show StableHlo.after hostOps1 (W2 m ρ c) (Proc.devRef .tc main_v37) = _
  after_results_simp
  rw [W2_v5 m ρ c, W2_arg3 m ρ c]
  rfl

/-- The four 64 × 64 blocks of the 256 × 64 weight. -/
theorem V3_v38 (c : Dev nD) : (V3 (F := Ideal) m ρ c main_v38 : S64x64.Idx → EReal)
    = extractStridedSlice S64x64 ![0, 0] ((m ((c : Thread nD τ).loc main_arg11)) : S256x64.Idx → EReal) slices_S256x64_S64x64_0_0 := by
  show StableHlo.after hostOps1 (W2 m ρ c) (Proc.devRef .tc main_v38) = _
  after_results_simp
  rw [W2_arg11 m ρ c]
theorem V3_v39 (c : Dev nD) : (V3 (F := Ideal) m ρ c main_v39 : S64x64.Idx → EReal)
    = extractStridedSlice S64x64 ![64, 0] ((m ((c : Thread nD τ).loc main_arg11)) : S256x64.Idx → EReal) slices_S256x64_S64x64_64_0 := by
  show StableHlo.after hostOps1 (W2 m ρ c) (Proc.devRef .tc main_v39) = _
  after_results_simp
  rw [W2_arg11 m ρ c]
theorem V3_v40 (c : Dev nD) : (V3 (F := Ideal) m ρ c main_v40 : S64x64.Idx → EReal)
    = extractStridedSlice S64x64 ![128, 0] ((m ((c : Thread nD τ).loc main_arg11)) : S256x64.Idx → EReal) slices_S256x64_S64x64_128_0 := by
  show StableHlo.after hostOps1 (W2 m ρ c) (Proc.devRef .tc main_v40) = _
  after_results_simp
  rw [W2_arg11 m ρ c]
theorem V3_v41 (c : Dev nD) : (V3 (F := Ideal) m ρ c main_v41 : S64x64.Idx → EReal)
    = extractStridedSlice S64x64 ![192, 0] ((m ((c : Thread nD τ).loc main_arg11)) : S256x64.Idx → EReal) slices_S256x64_S64x64_192_0 := by
  show StableHlo.after hostOps1 (W2 m ρ c) (Proc.devRef .tc main_v41) = _
  after_results_simp
  rw [W2_arg11 m ρ c]

/-- The four bias rows: each bias vector as a one-row array. -/
theorem V3_v42 (c : Dev nD) : rowVec (V3 (F := Ideal) m ρ c main_v42 : S1x64.Idx → EReal) = (m ((c : Thread nD τ).loc main_arg10)) := by
  have e : (V3 (F := Ideal) m ρ c main_v42 : S1x64.Idx → EReal)
      = shapeCast S1x64 ((m ((c : Thread nD τ).loc main_arg10)) : S64.Idx → EReal) shapeCasts_S64_S1x64 := by
    show StableHlo.after hostOps1 (W2 m ρ c) (Proc.devRef .tc main_v42) = _
    after_results_simp
    rw [W2_arg10 m ρ c]
    rfl
  rw [e]
  exact rowVec_reshape _ _
theorem V3_v43 (c : Dev nD) : rowVec (V3 (F := Ideal) m ρ c main_v43 : S1x64.Idx → EReal) = (m ((c : Thread nD τ).loc main_arg12)) := by
  have e : (V3 (F := Ideal) m ρ c main_v43 : S1x64.Idx → EReal)
      = shapeCast S1x64 ((m ((c : Thread nD τ).loc main_arg12)) : S64.Idx → EReal) shapeCasts_S64_S1x64 := by
    show StableHlo.after hostOps1 (W2 m ρ c) (Proc.devRef .tc main_v43) = _
    after_results_simp
    rw [W2_arg12 m ρ c]
    rfl
  rw [e]
  exact rowVec_reshape _ _
theorem V3_v44 (c : Dev nD) : rowVec (V3 (F := Ideal) m ρ c main_v44 : S1x128.Idx → EReal) = (m ((c : Thread nD τ).loc main_arg14)) := by
  have e : (V3 (F := Ideal) m ρ c main_v44 : S1x128.Idx → EReal)
      = shapeCast S1x128 ((m ((c : Thread nD τ).loc main_arg14)) : S128.Idx → EReal) shapeCasts_S128_S1x128 := by
    show StableHlo.after hostOps1 (W2 m ρ c) (Proc.devRef .tc main_v44) = _
    after_results_simp
    rw [W2_arg14 m ρ c]
    rfl
  rw [e]
  exact rowVec_reshape _ _
theorem V3_v45 (c : Dev nD) : rowVec (V3 (F := Ideal) m ρ c main_v45 : S1x1.Idx → EReal) = (m ((c : Thread nD τ).loc main_arg16)) := by
  have e : (V3 (F := Ideal) m ρ c main_v45 : S1x1.Idx → EReal)
      = shapeCast S1x1 ((m ((c : Thread nD τ).loc main_arg16)) : S1.Idx → EReal) shapeCasts_S1_S1x1 := by
    show StableHlo.after hostOps1 (W2 m ρ c) (Proc.devRef .tc main_v45) = _
    after_results_simp
    rw [W2_arg16 m ρ c]
    rfl
  rw [e]
  exact rowVec_reshape _ _

/-- The score column of equal arrays. -/
theorem score_congr {M : Nat} {Q Q' H H' E E' T T' : (⟨2, ![M, 64]⟩ : Shape).Idx → EReal}
    {Wr Wr' : (⟨2, ![64, 64]⟩ : Shape).Idx → EReal} {br br' : (⟨1, ![64]⟩ : Shape).Idx → EReal}
    {Wa Wa' Wb Wb' Wc Wc' Wd Wd' : (⟨2, ![64, 64]⟩ : Shape).Idx → EReal} {b1 b1' : (⟨1, ![64]⟩ : Shape).Idx → EReal}
    {W2 W2' : (⟨2, ![64, 128]⟩ : Shape).Idx → EReal} {b2 b2' : (⟨1, ![128]⟩ : Shape).Idx → EReal}
    {Wh Wh' : (⟨2, ![128, 1]⟩ : Shape).Idx → EReal} {bh bh' : (⟨1, ![1]⟩ : Shape).Idx → EReal}
    (hQ : Q = Q') (hH : H = H') (hE : E = E') (hT : T = T') (hWr : Wr = Wr') (hbr : br = br')
    (hWa : Wa = Wa') (hWb : Wb = Wb') (hWc : Wc = Wc') (hWd : Wd = Wd') (hb1 : b1 = b1')
    (hW2 : W2 = W2') (hb2 : b2 = b2') (hWh : Wh = Wh') (hbh : bh = bh') :
    score Q H E T Wr br Wa Wb Wc Wd b1 W2 b2 Wh bh = score Q' H' E' T' Wr' br' Wa' Wb' Wc' Wd' b1' W2' b2' Wh' bh' := by
  subst hQ hH hE hT hWr hbr hWa hWb hWc hWd hb1 hW2 hb2 hWh hbh
  rfl

/-! ## The result -/

/-- The score column the second region leaves, over the launch memory's arrays. -/
theorem W4_v46 (c : Dev nD) : (W4 (F := Ideal) m ρ c (Proc.devRef .tc main_v46) : S800000x1.Idx → EReal)
    = score (Cert.ReferenceIdeal.Read.val_main_v29 (F := Ideal) (m ((c : Thread nD τ).loc main_arg0)) (m ((c : Thread nD τ).loc main_arg3)) (m ((c : Thread nD τ).loc main_arg4)) (m ((c : Thread nD τ).loc main_arg5)) (m ((c : Thread nD τ).loc main_arg6)))
        (Cert.ReferenceIdeal.Read.val_main_v36 (F := Ideal) (m ((c : Thread nD τ).loc main_arg1)) (m ((c : Thread nD τ).loc main_arg3)) (m ((c : Thread nD τ).loc main_arg7)) (m ((c : Thread nD τ).loc main_arg8))) ((m ((c : Thread nD τ).loc main_arg2)) : S800000x64.Idx → EReal)
        (Cert.ReferenceIdeal.Read.val_main_v43 (F := Ideal) (m ((c : Thread nD τ).loc main_arg1)) (m ((c : Thread nD τ).loc main_arg3)) (m ((c : Thread nD τ).loc main_arg7)) (m ((c : Thread nD τ).loc main_arg8))) ((m ((c : Thread nD τ).loc main_arg9)) : S64x64.Idx → EReal) (m ((c : Thread nD τ).loc main_arg10))
        (extractStridedSlice S64x64 ![0, 0] ((m ((c : Thread nD τ).loc main_arg11)) : S256x64.Idx → EReal) slices_S256x64_S64x64_0_0)
        (extractStridedSlice S64x64 ![64, 0] ((m ((c : Thread nD τ).loc main_arg11)) : S256x64.Idx → EReal) slices_S256x64_S64x64_64_0)
        (extractStridedSlice S64x64 ![128, 0] ((m ((c : Thread nD τ).loc main_arg11)) : S256x64.Idx → EReal) slices_S256x64_S64x64_128_0)
        (extractStridedSlice S64x64 ![192, 0] ((m ((c : Thread nD τ).loc main_arg11)) : S256x64.Idx → EReal) slices_S256x64_S64x64_192_0)
        (m ((c : Thread nD τ).loc main_arg12)) ((m ((c : Thread nD τ).loc main_arg13)) : S64x128.Idx → EReal) (m ((c : Thread nD τ).loc main_arg14)) ((m ((c : Thread nD τ).loc main_arg15)) : S128x1.Idx → EReal) (m ((c : Thread nD τ).loc main_arg16)) := by
  refine (W4_arr m ρ c 15).trans ((final1 (V3 m ρ) c).trans ?_)
  exact score_congr (V3_v23 m ρ c) (V3_v30 m ρ c) (W3_arg2 m ρ c) (V3_v37 m ρ c) (W3_arg9 m ρ c) (V3_v42 m ρ c)
    (V3_v38 m ρ c) (V3_v39 m ρ c) (V3_v40 m ρ c) (V3_v41 m ρ c) (V3_v43 m ρ c) (W3_arg13 m ρ c) (V3_v44 m ρ c)
    (W3_arg15 m ρ c) (V3_v45 m ρ c)

/-- The result buffer at the end of @main is the reference's result term of the launch memory's arrays. -/
theorem result_eq (c : Dev nD) : (W5 (F := Ideal) m ρ c (Proc.devRef .tc main_v47) : S800000.Idx → EReal)
    = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have e : (W5 (F := Ideal) m ρ c (Proc.devRef .tc main_v47) : S800000.Idx → EReal)
      = shapeCast S800000 (W4 (F := Ideal) m ρ c (Proc.devRef .tc main_v46) : S800000x1.Idx → EReal) shapeCasts_S800000x1_S800000 := by
    show StableHlo.after hostOps2 (W4 m ρ c) (Proc.devRef .tc main_v47) = _
    after_results_simp
    rfl
  refine e.trans ?_
  rw [W4_v46 m ρ c]
  funext i
  rw [Cert.ReferenceIdeal.RefValue.ref_eq _ _ _ _ _ _ _ _ _ _ _ _ _ _ _ _ _ slices_S256x64_S64x64_0_0 slices_S256x64_S64x64_64_0
    slices_S256x64_S64x64_128_0 slices_S256x64_S64x64_192_0 i]
  refine shapeCast_apply _ shapeCasts_S800000x1_S800000 i (ix2 (i 0) (0 : Fin 1)) ?_
  rewrite [Shape.rowMajor_val_two, Shape.rowMajor_val_one]
  show (i 0).val * 1 + 0 = (i 0).val
  omega

end Cert.KernelIdeal.KernelValue

end
-- ==== Proof.lean ====
/-
  The certificate of the edge-scoring kernel against its reference.

  The three programs' frames: the two kernel programs by the generated frame proofs, the reference by its generated
  run with the result dropped. The idealized kernel is the kernel's idealization with nothing to state (no rewrite
  was applied). At the ideal values the two idealized programs end with the same result array: the kernel program's
  result buffer, read through its host stretches and its two regions, is the score of every edge's four gathered
  rows (the node projection and the relation rows being linear layers, the hidden layer a sum of four 64-wide
  products, then two layers and the logistic function), and the reference's result is that same score, its one
  256-wide product being the sum of the four and its 1 / (1 + exp (-x)) the logistic function.
-/
import proofs.«174812_j45294725103970_1_alg».proof.Defs
import proofs.«174812_j45294725103970_1_alg».proof.Proof.Gen.Kernel
import proofs.«174812_j45294725103970_1_alg».proof.Proof.Gen.Kernel.Skeleton
import proofs.«174812_j45294725103970_1_alg».proof.Proof.Gen.Kernel.Launch
import proofs.«174812_j45294725103970_1_alg».proof.Proof.Gen.Kernel.Points
import proofs.«174812_j45294725103970_1_alg».proof.Proof.Gen.Kernel.Frame
import proofs.«174812_j45294725103970_1_alg».proof.Proof.Gen.KernelIdeal
import proofs.«174812_j45294725103970_1_alg».proof.Proof.Gen.KernelIdeal.Skeleton
import proofs.«174812_j45294725103970_1_alg».proof.Proof.Gen.KernelIdeal.Launch
import proofs.«174812_j45294725103970_1_alg».proof.Proof.Gen.KernelIdeal.Points
import proofs.«174812_j45294725103970_1_alg».proof.Proof.Gen.KernelIdeal.Frame
import proofs.«174812_j45294725103970_1_alg».proof.Proof.Gen.ReferenceIdeal
import proofs.«174812_j45294725103970_1_alg».proof.Proof.Gen.Pre_finite_inputs
import proofs.«174812_j45294725103970_1_alg».proof.Proof.Gen.ReferenceIdeal.Run
import proofs.«174812_j45294725103970_1_alg».proof.Proof.Gen.ReferenceIdeal.Read
import proofs.«174812_j45294725103970_1_alg».proof.Proof.RunAll
import proofs.«174812_j45294725103970_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The kernel program terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No rewrite was applied to the kernel: nothing to state. -/
theorem preserves : Cert.preserves_Kernel_KernelIdeal := trivial

/-- The idealized kernel program's run with its result buffer named and its arguments kept. -/
theorem run_ki (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v47)
          = Cert.KernelIdeal.Gen.W5 (F := Ideal) m ρ c (Proc.devRef .tc Cert.KernelIdeal.main_v47)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)) :=
  (θ_run Cert.KernelIdeal.defs _ _).mono (fun r h c =>
      ⟨h c _ Cert.KernelIdeal.RunAll.mem_result,
        (h c _ (Cert.KernelIdeal.Gen.mem_uc Cert.KernelIdeal.main_arg0 (by decide))).trans (Cert.KernelIdeal.Gen.W5_main_arg0 m ρ c),
        (h c _ (Cert.KernelIdeal.Gen.mem_uc Cert.KernelIdeal.main_arg1 (by decide))).trans (Cert.KernelIdeal.Gen.W5_main_arg1 m ρ c),
        (h c _ (Cert.KernelIdeal.Gen.mem_uc Cert.KernelIdeal.main_arg2 (by decide))).trans (Cert.KernelIdeal.Gen.W5_main_arg2 m ρ c),
        (h c _ (Cert.KernelIdeal.Gen.mem_uc Cert.KernelIdeal.main_arg3 (by decide))).trans (Cert.KernelIdeal.Gen.W5_main_arg3 m ρ c),
        (h c _ (Cert.KernelIdeal.Gen.mem_uc Cert.KernelIdeal.main_arg4 (by decide))).trans (Cert.KernelIdeal.Gen.W5_main_arg4 m ρ c),
        (h c _ (Cert.KernelIdeal.Gen.mem_uc Cert.KernelIdeal.main_arg5 (by decide))).trans (Cert.KernelIdeal.Gen.W5_main_arg5 m ρ c),
        (h c _ (Cert.KernelIdeal.Gen.mem_uc Cert.KernelIdeal.main_arg6 (by decide))).trans (Cert.KernelIdeal.Gen.W5_main_arg6 m ρ c),
        (h c _ (Cert.KernelIdeal.Gen.mem_uc Cert.KernelIdeal.main_arg7 (by decide))).trans (Cert.KernelIdeal.Gen.W5_main_arg7 m ρ c),
        (h c _ (Cert.KernelIdeal.Gen.mem_uc Cert.KernelIdeal.main_arg8 (by decide))).trans (Cert.KernelIdeal.Gen.W5_main_arg8 m ρ c),
        (h c _ (Cert.KernelIdeal.Gen.mem_uc Cert.KernelIdeal.main_arg9 (by decide))).trans (Cert.KernelIdeal.Gen.W5_main_arg9 m ρ c),
        (h c _ (Cert.KernelIdeal.Gen.mem_uc Cert.KernelIdeal.main_arg10 (by decide))).trans (Cert.KernelIdeal.Gen.W5_main_arg10 m ρ c),
        (h c _ (Cert.KernelIdeal.Gen.mem_uc Cert.KernelIdeal.main_arg11 (by decide))).trans (Cert.KernelIdeal.Gen.W5_main_arg11 m ρ c),
        (h c _ (Cert.KernelIdeal.Gen.mem_uc Cert.KernelIdeal.main_arg12 (by decide))).trans (Cert.KernelIdeal.Gen.W5_main_arg12 m ρ c),
        (h c _ (Cert.KernelIdeal.Gen.mem_uc Cert.KernelIdeal.main_arg13 (by decide))).trans (Cert.KernelIdeal.Gen.W5_main_arg13 m ρ c),
        (h c _ (Cert.KernelIdeal.Gen.mem_uc Cert.KernelIdeal.main_arg14 (by decide))).trans (Cert.KernelIdeal.Gen.W5_main_arg14 m ρ c),
        (h c _ (Cert.KernelIdeal.Gen.mem_uc Cert.KernelIdeal.main_arg15 (by decide))).trans (Cert.KernelIdeal.Gen.W5_main_arg15 m ρ c),
        (h c _ (Cert.KernelIdeal.Gen.mem_uc Cert.KernelIdeal.main_arg16 (by decide))).trans (Cert.KernelIdeal.Gen.W5_main_arg16 m ρ c)⟩)
    (Cert.KernelIdeal.RunAll.run_all (F := Ideal) m ρ)

/-- At the ideal values, from memories that agree on the arguments, both programs end with the same result array. -/
theorem algebraic : Cert.algebraic_KernelIdeal_ReferenceIdeal := by
  intro m ρ m' ρ' _ hagree
  refine ⟨fun c => Cert.KernelIdeal.Gen.W5 (F := Ideal) m ρ c (Proc.devRef .tc Cert.KernelIdeal.main_v47), run_ki m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.Read.val_main_v65_eq, a0, a1, a2, a3, a4, a5, a6, a7, a8, a9, a10, a11, a12, a13, a14, a15, a16]
  exact (Cert.KernelIdeal.KernelValue.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
